-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x33 : Shape := ⟨2, ![50000, 33]⟩
abbrev S50000x3x3x3 : Shape := ⟨4, ![50000, 3, 3, 3]⟩
abbrev S33x32 : Shape := ⟨2, ![33, 32]⟩
abbrev S32 : Shape := ⟨1, ![32]⟩
abbrev S32x32 : Shape := ⟨2, ![32, 32]⟩
abbrev S32x768 : Shape := ⟨2, ![32, 768]⟩
abbrev S768 : Shape := ⟨1, ![768]⟩
abbrev S_ : Shape := ⟨0, ![]⟩

class Facts : Prop where
  bcast_S_S50000x33 : S_.BroadcastsInDim S50000x33 (![] : Fin 0 → Fin S50000x33.rank)
  reducesTo_S50000x33_S_d0_1 : S50000x33.ReducesTo [0, 1] S_
  h_S_ : 0 < S_.numel
  bcast_S_S50000x3x3x3 : S_.BroadcastsInDim S50000x3x3x3 (![] : Fin 0 → Fin S50000x3x3x3.rank)
  reducesTo_S50000x3x3x3_S_d0_1_2_3 : S50000x3x3x3.ReducesTo [0, 1, 2, 3] S_
  bcast_S_S33x32 : S_.BroadcastsInDim S33x32 (![] : Fin 0 → Fin S33x32.rank)
  reducesTo_S33x32_S_d0_1 : S33x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S32x768 : S_.BroadcastsInDim S32x768 (![] : Fin 0 → Fin S32x768.rank)
  reducesTo_S32x768_S_d0_1 : S32x768.ReducesTo [0, 1] S_
  bcast_S_S768 : S_.BroadcastsInDim S768 (![] : Fin 0 → Fin S768.rank)
  reducesTo_S768_S_d0 : S768.ReducesTo [0] S_

variable [Facts]

def fn_part2 {F : FTy → Type} [FloatOps F] (main_arg7 : FVec F S768 .f32) (main_v33 : IVec S_ 1) : IVec S_ 1 :=
  let main_v34 : FVec F S768 .f32 := Host.absf main_arg7
  let main_cst_12 : FVec F S_ .f32 := constant S_ .f32 0x7F800000#32
  let main_v35 : FVec F S768 .f32 := broadcastInDim S768 ![] bcast_S_S768 main_cst_12
  let main_v36 : IVec S768 1 := cmpf .olt main_v34 main_v35
  let main_c_13 : IVec S_ 1 := constantI S_ 1 1#1
  let main_v37 : IVec S_ 1 := (fun x v => Host.reduce IntOp.andi x v reducesTo_S768_S_d0 h_S_) main_v36 main_c_13
  let main_v38 : IVec S_ 1 := andi main_v33 main_v37
  main_v38

def fn_part1 {F : FTy → Type} [FloatOps F] (main_arg4 : FVec F S32x32 .f32) (main_arg5 : FVec F S32 .f32) (main_arg6 : FVec F S32x768 .f32) (main_arg7 : FVec F S768 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32x32 .f32 := Host.absf main_arg4
  let main_cst_6 : FVec F S_ .f32 := constant S_ .f32 0x7F800000#32
  let main_v20 : FVec F S32x32 .f32 := broadcastInDim S32x32 ![] bcast_S_S32x32 main_cst_6
  let main_v21 : IVec S32x32 1 := cmpf .olt main_v19 main_v20
  let main_c_7 : IVec S_ 1 := constantI S_ 1 1#1
  let main_v22 : IVec S_ 1 := (fun x v => Host.reduce IntOp.andi x v reducesTo_S32x32_S_d0_1 h_S_) main_v21 main_c_7
  let main_v23 : IVec S_ 1 := andi main_v18 main_v22
  let main_v24 : FVec F S32 .f32 := Host.absf main_arg5
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S32x768 .f32 := Host.absf main_arg6
  let main_cst_10 : FVec F S_ .f32 := constant S_ .f32 0x7F800000#32
  let main_v30 : FVec F S32x768 .f32 := broadcastInDim S32x768 ![] bcast_S_S32x768 main_cst_10
  let main_v31 : IVec S32x768 1 := cmpf .olt main_v29 main_v30
  let main_c_11 : IVec S_ 1 := constantI S_ 1 1#1
  let main_v32 : IVec S_ 1 := (fun x v => Host.reduce IntOp.andi x v reducesTo_S32x768_S_d0_1 h_S_) main_v31 main_c_11
  let main_v33 : IVec S_ 1 := andi main_v28 main_v32
  fn_part2 (F := F) main_arg7 main_v33

def fn {F : FTy → Type} [FloatOps F] (main_arg0 : FVec F S50000x33 .f32) (main_arg1 : FVec F S50000x3x3x3 .f32) (main_arg2 : FVec F S33x32 .f32) (main_arg3 : FVec F S32 .f32) (main_arg4 : FVec F S32x32 .f32) (main_arg5 : FVec F S32 .f32) (main_arg6 : FVec F S32x768 .f32) (main_arg7 : FVec F S768 .f32) : IVec S_ 1 :=
  let main_v0 : FVec F S50000x33 .f32 := Host.absf main_arg0
  let main_cst : FVec F S_ .f32 := constant S_ .f32 0x7F800000#32
  let main_v1 : FVec F S50000x33 .f32 := broadcastInDim S50000x33 ![] bcast_S_S50000x33 main_cst
  let main_v2 : IVec S50000x33 1 := cmpf .olt main_v0 main_v1
  let main_c : IVec S_ 1 := constantI S_ 1 1#1
  let main_v3 : IVec S_ 1 := (fun x v => Host.reduce IntOp.andi x v reducesTo_S50000x33_S_d0_1 h_S_) main_v2 main_c
  let main_v4 : FVec F S50000x3x3x3 .f32 := Host.absf main_arg1
  let main_cst_0 : FVec F S_ .f32 := constant S_ .f32 0x7F800000#32
  let main_v5 : FVec F S50000x3x3x3 .f32 := broadcastInDim S50000x3x3x3 ![] bcast_S_S50000x3x3x3 main_cst_0
  let main_v6 : IVec S50000x3x3x3 1 := cmpf .olt main_v4 main_v5
  let main_c_1 : IVec S_ 1 := constantI S_ 1 1#1
  let main_v7 : IVec S_ 1 := (fun x v => Host.reduce IntOp.andi x v reducesTo_S50000x3x3x3_S_d0_1_2_3 h_S_) main_v6 main_c_1
  let main_v8 : IVec S_ 1 := andi main_v3 main_v7
  let main_v9 : FVec F S33x32 .f32 := Host.absf main_arg2
  let main_cst_2 : FVec F S_ .f32 := constant S_ .f32 0x7F800000#32
  let main_v10 : FVec F S33x32 .f32 := broadcastInDim S33x32 ![] bcast_S_S33x32 main_cst_2
  let main_v11 : IVec S33x32 1 := cmpf .olt main_v9 main_v10
  let main_c_3 : IVec S_ 1 := constantI S_ 1 1#1
  let main_v12 : IVec S_ 1 := (fun x v => Host.reduce IntOp.andi x v reducesTo_S33x32_S_d0_1 h_S_) main_v11 main_c_3
  let main_v13 : IVec S_ 1 := andi main_v8 main_v12
  let main_v14 : FVec F S32 .f32 := Host.absf main_arg3
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg4 main_arg5 main_arg6 main_arg7 main_v13 main_v16
-- ==== Kernel.lean ====
abbrev S50000x33 : Shape := ⟨2, ![50000, 33]⟩
abbrev S50000x3x3x3 : Shape := ⟨4, ![50000, 3, 3, 3]⟩
abbrev S33x32 : Shape := ⟨2, ![33, 32]⟩
abbrev S32 : Shape := ⟨1, ![32]⟩
abbrev S32x32 : Shape := ⟨2, ![32, 32]⟩
abbrev S32x768 : Shape := ⟨2, ![32, 768]⟩
abbrev S768 : Shape := ⟨1, ![768]⟩
abbrev S32x256x3 : Shape := ⟨3, ![32, 256, 3]⟩
abbrev S32x3x256 : Shape := ⟨3, ![32, 3, 256]⟩
abbrev S256x3 : Shape := ⟨2, ![256, 3]⟩
abbrev S3x256 : Shape := ⟨2, ![3, 256]⟩
abbrev S50000x27 : Shape := ⟨2, ![50000, 27]⟩
abbrev S50000x9x3 : Shape := ⟨3, ![50000, 9, 3]⟩
abbrev S50000x3x9 : Shape := ⟨3, ![50000, 3, 9]⟩
abbrev S1x32 : Shape := ⟨2, ![1, 32]⟩
abbrev S1x768 : Shape := ⟨2, ![1, 768]⟩
abbrev S50000x48x48 : Shape := ⟨3, ![50000, 48, 48]⟩
abbrev S200x33 : Shape := ⟨2, ![200, 33]⟩
abbrev S200x27 : Shape := ⟨2, ![200, 27]⟩
abbrev S200x48x48 : Shape := ⟨3, ![200, 48, 48]⟩
abbrev S200x32 : Shape := ⟨2, ![200, 32]⟩
abbrev S200x768 : Shape := ⟨2, ![200, 768]⟩
abbrev S200x256 : Shape := ⟨2, ![200, 256]⟩
abbrev S200x9 : Shape := ⟨2, ![200, 9]⟩
abbrev S200x16x16 : Shape := ⟨3, ![200, 16, 16]⟩
abbrev S200x3x3 : Shape := ⟨3, ![200, 3, 3]⟩
abbrev S200x16x1x16 : Shape := ⟨4, ![200, 16, 1, 16]⟩
abbrev S200x16x3x16 : Shape := ⟨4, ![200, 16, 3, 16]⟩
abbrev S200x48x16 : Shape := ⟨3, ![200, 48, 16]⟩
abbrev S200x48x16x1 : Shape := ⟨4, ![200, 48, 16, 1]⟩
abbrev S200x48x16x3 : Shape := ⟨4, ![200, 48, 16, 3]⟩
abbrev S200x48x3 : Shape := ⟨3, ![200, 48, 3]⟩

abbrev nBuf : Space → Nat
  | .hbm => 22
  | .vmem => 12
  | .smem => 0
  | _ => 0

abbrev bufTy : (tb : Table) → Fin (tcTables nBuf tb) → BufTy
  | .hbm, ⟨0, _⟩ => ⟨S50000x33, .f32⟩
  | .hbm, ⟨1, _⟩ => ⟨S50000x3x3x3, .f32⟩
  | .hbm, ⟨2, _⟩ => ⟨S33x32, .f32⟩
  | .hbm, ⟨3, _⟩ => ⟨S32, .f32⟩
  | .hbm, ⟨4, _⟩ => ⟨S32x32, .f32⟩
  | .hbm, ⟨5, _⟩ => ⟨S32, .f32⟩
  | .hbm, ⟨6, _⟩ => ⟨S32x768, .f32⟩
  | .hbm, ⟨7, _⟩ => ⟨S768, .f32⟩
  | .hbm, ⟨8, _⟩ => ⟨S32x256x3, .f32⟩
  | .hbm, ⟨9, _⟩ => ⟨S32x3x256, .f32⟩
  | .hbm, ⟨10, _⟩ => ⟨S32x768, .f32⟩
  | .hbm, ⟨11, _⟩ => ⟨S256x3, .f32⟩
  | .hbm, ⟨12, _⟩ => ⟨S3x256, .f32⟩
  | .hbm, ⟨13, _⟩ => ⟨S768, .f32⟩
  | .hbm, ⟨14, _⟩ => ⟨S50000x27, .f32⟩
  | .hbm, ⟨15, _⟩ => ⟨S50000x9x3, .f32⟩
  | .hbm, ⟨16, _⟩ => ⟨S50000x3x9, .f32⟩
  | .hbm, ⟨17, _⟩ => ⟨S50000x27, .f32⟩
  | .hbm, ⟨18, _⟩ => ⟨S1x32, .f32⟩
  | .hbm, ⟨19, _⟩ => ⟨S1x32, .f32⟩
  | .hbm, ⟨20, _⟩ => ⟨S1x768, .f32⟩
  | .hbm, ⟨21, _⟩ => ⟨S50000x48x48, .f32⟩
  | .local _ .vmem, ⟨0, _⟩ => ⟨S200x33, .f32⟩
  | .local _ .vmem, ⟨1, _⟩ => ⟨S200x33, .f32⟩
  | .local _ .vmem, ⟨2, _⟩ => ⟨S200x27, .f32⟩
  | .local _ .vmem, ⟨3, _⟩ => ⟨S200x27, .f32⟩
  | .local _ .vmem, ⟨4, _⟩ => ⟨S33x32, .f32⟩
  | .local _ .vmem, ⟨5, _⟩ => ⟨S1x32, .f32⟩
  | .local _ .vmem, ⟨6, _⟩ => ⟨S32x32, .f32⟩
  | .local _ .vmem, ⟨7, _⟩ => ⟨S1x32, .f32⟩
  | .local _ .vmem, ⟨8, _⟩ => ⟨S32x768, .f32⟩
  | .local _ .vmem, ⟨9, _⟩ => ⟨S1x768, .f32⟩
  | .local _ .vmem, ⟨10, _⟩ => ⟨S200x48x48, .f32⟩
  | .local _ .vmem, ⟨11, _⟩ => ⟨S200x48x48, .f32⟩
  | _, _ => ⟨S50000x33, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S200x33 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S200x27 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S33x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S200x48x48 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  shapeCasts_S32x768_S32x256x3 : S32x768.ShapeCasts S32x256x3
  transposes_S32x256x3_S32x3x256_0_2_1 : S32x256x3.Transposes [0, 2, 1] S32x3x256
  shapeCasts_S32x3x256_S32x768 : S32x3x256.ShapeCasts S32x768
  shapeCasts_S768_S256x3 : S768.ShapeCasts S256x3
  transposes_S256x3_S3x256_1_0 : S256x3.Transposes [1, 0] S3x256
  shapeCasts_S3x256_S768 : S3x256.ShapeCasts S768
  shapeCasts_S50000x3x3x3_S50000x27 : S50000x3x3x3.ShapeCasts S50000x27
  shapeCasts_S50000x27_S50000x9x3 : S50000x27.ShapeCasts S50000x9x3
  transposes_S50000x9x3_S50000x3x9_0_2_1 : S50000x9x3.Transposes [0, 2, 1] S50000x3x9
  shapeCasts_S50000x3x9_S50000x27 : S50000x3x9.ShapeCasts S50000x27
  shapeCasts_S32_S1x32 : S32.ShapeCasts S1x32
  shapeCasts_S768_S1x768 : S768.ShapeCasts S1x768
  inb_S200x33_S200x33_0_0 : ∀ a, (![0, 0] : Fin 2 → Nat) a + S200x33.size a ≤ S200x33.size a
  h_S200x33 : 0 < S200x33.numel
  bitsLt_bf16_f32 : FTy.bits .bf16 < FTy.bits .f32
  inb_S33x32_S33x32_0_0 : ∀ a, (![0, 0] : Fin 2 → Nat) a + S33x32.size a ≤ S33x32.size a
  h_S33x32 : 0 < S33x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S200x32 : S1x32.Broadcasts S200x32
  inb_S32x32_S32x32_0_0 : ∀ a, (![0, 0] : Fin 2 → Nat) a + S32x32.size a ≤ S32x32.size a
  h_S32x32 : 0 < S32x32.numel
  inb_S32x768_S32x768_0_0 : ∀ a, (![0, 0] : Fin 2 → Nat) a + S32x768.size a ≤ S32x768.size a
  h_S32x768 : 0 < S32x768.numel
  shapeCasts_S32x768_S32x768 : S32x768.ShapeCasts S32x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S200x768 : S1x768.Broadcasts S200x768
  inb_S200x27_S200x27_0_0 : ∀ a, (![0, 0] : Fin 2 → Nat) a + S200x27.size a ≤ S200x27.size a
  h_S200x27 : 0 < S200x27.numel
  shapeCasts_S200x27_S200x27 : S200x27.ShapeCasts S200x27
  slices_S200x768_o0_0_S200x256 : S200x768.Slices ![0, 0] S200x256
  slices_S200x27_o0_0_S200x9 : S200x27.Slices ![0, 0] S200x9
  shapeCasts_S200x256_S200x16x16 : S200x256.ShapeCasts S200x16x16
  shapeCasts_S200x9_S200x3x3 : S200x9.ShapeCasts S200x3x3
  shapeCasts_S200x16x16_S200x16x1x16 : S200x16x16.ShapeCasts S200x16x1x16
  shapeCasts_S200x16x1x16_S200x16x1x16 : S200x16x1x16.ShapeCasts S200x16x1x16
  broadcasts_S200x16x1x16_S200x16x3x16 : S200x16x1x16.Broadcasts S200x16x3x16
  shapeCasts_S200x16x3x16_S200x48x16 : S200x16x3x16.ShapeCasts S200x48x16
  shapeCasts_S200x48x16_S200x48x16x1 : S200x48x16.ShapeCasts S200x48x16x1
  shapeCasts_S200x48x16x1_S200x48x16x1 : S200x48x16x1.ShapeCasts S200x48x16x1
  broadcasts_S200x48x16x1_S200x48x16x3 : S200x48x16x1.Broadcasts S200x48x16x3
  shapeCasts_S200x48x16x3_S200x48x48 : S200x48x16x3.ShapeCasts S200x48x48
  concatenates_S200x3x3_S200x3x3_S200x3x3_S200x3x3_S200x3x3_S200x3x3_S200x3x3_S200x3x3_S200x3x3_S200x3x3_S200x3x3_S200x3x3_S200x3x3_S200x3x3_S200x3x3_S200x3x3_S200x48x3_d1 : Shape.Concatenates [S200x3x3, S200x3x3, S200x3x3, S200x3x3, S200x3x3, S200x3x3, S200x3x3, S200x3x3, S200x3x3, S200x3x3, S200x3x3, S200x3x3, S200x3x3, S200x3x3, S200x3x3, S200x3x3] S200x48x3 1
  concatenates_S200x48x3_S200x48x3_S200x48x3_S200x48x3_S200x48x3_S200x48x3_S200x48x3_S200x48x3_S200x48x3_S200x48x3_S200x48x3_S200x48x3_S200x48x3_S200x48x3_S200x48x3_S200x48x3_S200x48x48_d2 : Shape.Concatenates [S200x48x3, S200x48x3, S200x48x3, S200x48x3, S200x48x3, S200x48x3, S200x48x3, S200x48x3, S200x48x3, S200x48x3, S200x48x3, S200x48x3, S200x48x3, S200x48x3, S200x48x3, S200x48x3] S200x48x48 2
  slices_S200x768_o0_256_S200x256 : S200x768.Slices ![0, 256] S200x256
  slices_S200x27_o0_9_S200x9 : S200x27.Slices ![0, 9] S200x9
  slices_S200x768_o0_512_S200x256 : S200x768.Slices ![0, 512] S200x256
  slices_S200x27_o0_18_S200x9 : S200x27.Slices ![0, 18] S200x9
  inb_S200x48x48_S200x48x48_0_0_0 : ∀ a, (![0, 0, 0] : Fin 3 → Nat) a + S200x48x48.size a ≤ S200x48x48.size a
  h_S200x48x48 : 0 < S200x48x48.numel
  dot_S200x33_S33x32_S200x32_1_0_0_1_n_n_wf : DotDims.WF S200x33 S33x32 S200x32 [1] [0] [0] [1] [] []
  dot_S200x32_S32x32_S200x32_1_0_0_1_n_n_wf : DotDims.WF S200x32 S32x32 S200x32 [1] [0] [0] [1] [] []
  dot_S200x32_S32x768_S200x768_1_0_0_1_n_n_wf : DotDims.WF S200x32 S32x768 S200x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x33.size a ≤ S50000x33.size a
  hwx0_0 : ∀ i : grid0.Coords, EltTy.bits .f32 = 32 ∨ (Rect.block (s := S50000x33) S200x33.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S200x27.size a ≤ S50000x27.size a
  hwx0_1 : ∀ i : grid0.Coords, EltTy.bits .f32 = 32 ∨ (Rect.block (s := S50000x27) S200x27.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S33x32.size a ≤ S33x32.size a
  hwx0_2 : ∀ i : grid0.Coords, EltTy.bits .f32 = 32 ∨ (Rect.block (s := S33x32) S33x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x32.size a ≤ S1x32.size a
  hwx0_3 : ∀ i : grid0.Coords, EltTy.bits .f32 = 32 ∨ (Rect.block (s := S1x32) S1x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x32.size a ≤ S32x32.size a
  hwx0_4 : ∀ i : grid0.Coords, EltTy.bits .f32 = 32 ∨ (Rect.block (s := S32x32) S32x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x32.size a ≤ S1x32.size a
  hwx0_5 : ∀ i : grid0.Coords, EltTy.bits .f32 = 32 ∨ (Rect.block (s := S1x32) S1x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S32x768.size a ≤ S32x768.size a
  hwx0_6 : ∀ i : grid0.Coords, EltTy.bits .f32 = 32 ∨ (Rect.block (s := S32x768) S32x768.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x768.size a ≤ S1x768.size a
  hwx0_7 : ∀ i : grid0.Coords, EltTy.bits .f32 = 32 ∨ (Rect.block (s := S1x768) S1x768.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S200x48x48.size a ≤ S50000x48x48.size a
  hwx0_8 : ∀ i : grid0.Coords, EltTy.bits .f32 = 32 ∨ (Rect.block (s := S50000x48x48) S200x48x48.size (cc0_transform_8 i) (hinb0_8 i)).WholeWords (EltTy.packing .f32)

variable [Facts₀]

def dot_S200x33_S33x32_S200x32_1_0_0_1_n_n : DotDims S200x33 S33x32 S200x32 where
  lhsContracting := [1]
  rhsContracting := [0]
  lhsNonContracting := [0]
  rhsNonContracting := [1]
  lhsBatch := []
  rhsBatch := []
  wf := dot_S200x33_S33x32_S200x32_1_0_0_1_n_n_wf
def dot_S200x32_S32x32_S200x32_1_0_0_1_n_n : DotDims S200x32 S32x32 S200x32 where
  lhsContracting := [1]
  rhsContracting := [0]
  lhsNonContracting := [0]
  rhsNonContracting := [1]
  lhsBatch := []
  rhsBatch := []
  wf := dot_S200x32_S32x32_S200x32_1_0_0_1_n_n_wf
def dot_S200x32_S32x768_S200x768_1_0_0_1_n_n : DotDims S200x32 S32x768 S200x768 where
  lhsContracting := [1]
  rhsContracting := [0]
  lhsNonContracting := [0]
  rhsNonContracting := [1]
  lhsBatch := []
  rhsBatch := []
  wf := dot_S200x32_S32x768_S200x768_1_0_0_1_n_n_wf

abbrev win0_0 : Pipeline.Window sig grid0 :=
  Pipeline.Window.ofSpec (Memref.whole main_arg0) S200x33.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S200x27.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S33x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S1x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S32x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v11) S1x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S32x768.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v12) S1x768.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v13) S200x48x48.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S50000x33 : Shape := ⟨2, ![50000, 33]⟩
abbrev S50000x3x3x3 : Shape := ⟨4, ![50000, 3, 3, 3]⟩
abbrev S33x32 : Shape := ⟨2, ![33, 32]⟩
abbrev S32 : Shape := ⟨1, ![32]⟩
abbrev S32x32 : Shape := ⟨2, ![32, 32]⟩
abbrev S32x768 : Shape := ⟨2, ![32, 768]⟩
abbrev S768 : Shape := ⟨1, ![768]⟩
abbrev S50000x32 : Shape := ⟨2, ![50000, 32]⟩
abbrev S1x32 : Shape := ⟨2, ![1, 32]⟩
abbrev S_ : Shape := ⟨0, ![]⟩
abbrev S50000x768 : Shape := ⟨2, ![50000, 768]⟩
abbrev S1x768 : Shape := ⟨2, ![1, 768]⟩
abbrev S50000x256x3 : Shape := ⟨3, ![50000, 256, 3]⟩
abbrev S50000x9x3 : Shape := ⟨3, ![50000, 9, 3]⟩
abbrev S50000x256x9 : Shape := ⟨3, ![50000, 256, 9]⟩
abbrev S50000x16x16x3x3 : Shape := ⟨5, ![50000, 16, 16, 3, 3]⟩
abbrev S50000x16x3x16x3 : Shape := ⟨5, ![50000, 16, 3, 16, 3]⟩
abbrev S50000x48x48 : Shape := ⟨3, ![50000, 48, 48]⟩

abbrev nBuf : Space → Nat
  | .hbm => 32
  | .vmem => 0
  | .smem => 0
  | _ => 0

abbrev bufTy : (tb : Table) → Fin (tcTables nBuf tb) → BufTy
  | .hbm, ⟨0, _⟩ => ⟨S50000x33, .f32⟩
  | .hbm, ⟨1, _⟩ => ⟨S50000x3x3x3, .f32⟩
  | .hbm, ⟨2, _⟩ => ⟨S33x32, .f32⟩
  | .hbm, ⟨3, _⟩ => ⟨S32, .f32⟩
  | .hbm, ⟨4, _⟩ => ⟨S32x32, .f32⟩
  | .hbm, ⟨5, _⟩ => ⟨S32, .f32⟩
  | .hbm, ⟨6, _⟩ => ⟨S32x768, .f32⟩
  | .hbm, ⟨7, _⟩ => ⟨S768, .f32⟩
  | .hbm, ⟨8, _⟩ => ⟨S50000x32, .f32⟩
  | .hbm, ⟨9, _⟩ => ⟨S1x32, .f32⟩
  | .hbm, ⟨10, _⟩ => ⟨S50000x32, .f32⟩
  | .hbm, ⟨11, _⟩ => ⟨S50000x32, .f32⟩
  | .hbm, ⟨12, _⟩ => ⟨S_, .f32⟩
  | .hbm, ⟨13, _⟩ => ⟨S50000x32, .f32⟩
  | .hbm, ⟨14, _⟩ => ⟨S50000x32, .f32⟩
  | .hbm, ⟨15, _⟩ => ⟨S50000x32, .f32⟩
  | .hbm, ⟨16, _⟩ => ⟨S1x32, .f32⟩
  | .hbm, ⟨17, _⟩ => ⟨S50000x32, .f32⟩
  | .hbm, ⟨18, _⟩ => ⟨S50000x32, .f32⟩
  | .hbm, ⟨19, _⟩ => ⟨S_, .f32⟩
  | .hbm, ⟨20, _⟩ => ⟨S50000x32, .f32⟩
  | .hbm, ⟨21, _⟩ => ⟨S50000x32, .f32⟩
  | .hbm, ⟨22, _⟩ => ⟨S50000x768, .f32⟩
  | .hbm, ⟨23, _⟩ => ⟨S1x768, .f32⟩
  | .hbm, ⟨24, _⟩ => ⟨S50000x768, .f32⟩
  | .hbm, ⟨25, _⟩ => ⟨S50000x768, .f32⟩
  | .hbm, ⟨26, _⟩ => ⟨S50000x256x3, .f32⟩
  | .hbm, ⟨27, _⟩ => ⟨S50000x9x3, .f32⟩
  | .hbm, ⟨28, _⟩ => ⟨S50000x256x9, .f32⟩
  | .hbm, ⟨29, _⟩ => ⟨S50000x16x16x3x3, .f32⟩
  | .hbm, ⟨30, _⟩ => ⟨S50000x16x3x16x3, .f32⟩
  | .hbm, ⟨31, _⟩ => ⟨S50000x48x48, .f32⟩
  | _, _ => ⟨S50000x33, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_call0_cst : Ref sig .tc := ⟨.hbm, 12, rfl⟩
abbrev main_call0_v0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_call1_cst : Ref sig .tc := ⟨.hbm, 19, rfl⟩
abbrev main_call1_v0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩

abbrev nD : Nat := 1
abbrev τ : Topo := Topo.v7x

variable {F : FTy → Type} [FloatOps F]

class Facts₀ : Prop where
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  bcast_S_S50000x32 : S_.BroadcastsInDim S50000x32 (![] : Fin 0 → Fin S50000x32.rank)
  bcast_S768_S1x768_1 : S768.BroadcastsInDim S1x768 (![1] : Fin 1 → Fin S1x768.rank)
  bcast_S1x768_S50000x768_0_1 : S1x768.BroadcastsInDim S50000x768 (![0, 1] : Fin 2 → Fin S50000x768.rank)
  shapeCasts_S50000x768_S50000x256x3 : S50000x768.ShapeCasts S50000x256x3
  shapeCasts_S50000x3x3x3_S50000x9x3 : S50000x3x3x3.ShapeCasts S50000x9x3
  shapeCasts_S50000x256x9_S50000x16x16x3x3 : S50000x256x9.ShapeCasts S50000x16x16x3x3
  transposes_S50000x16x16x3x3_S50000x16x3x16x3_0_1_3_2_4 : S50000x16x16x3x3.Transposes [0, 1, 3, 2, 4] S50000x16x3x16x3
  shapeCasts_S50000x16x3x16x3_S50000x48x48 : S50000x16x3x16x3.ShapeCasts S50000x48x48
  dot_S50000x33_S33x32_S50000x32_1_0_0_1_n_n_wf : DotDims.WF S50000x33 S33x32 S50000x32 [1] [0] [0] [1] [] []
  dot_S50000x32_S32x32_S50000x32_1_0_0_1_n_n_wf : DotDims.WF S50000x32 S32x32 S50000x32 [1] [0] [0] [1] [] []
  dot_S50000x32_S32x768_S50000x768_1_0_0_1_n_n_wf : DotDims.WF S50000x32 S32x768 S50000x768 [1] [0] [0] [1] [] []
  dot_S50000x256x3_S50000x9x3_S50000x256x9_2_2_1_1_0_0_wf : DotDims.WF S50000x256x3 S50000x9x3 S50000x256x9 [2] [2] [1] [1] [0] [0]

variable [Facts₀]

def dot_S50000x33_S33x32_S50000x32_1_0_0_1_n_n : DotDims S50000x33 S33x32 S50000x32 where
  lhsContracting := [1]
  rhsContracting := [0]
  lhsNonContracting := [0]
  rhsNonContracting := [1]
  lhsBatch := []
  rhsBatch := []
  wf := dot_S50000x33_S33x32_S50000x32_1_0_0_1_n_n_wf
def dot_S50000x32_S32x32_S50000x32_1_0_0_1_n_n : DotDims S50000x32 S32x32 S50000x32 where
  lhsContracting := [1]
  rhsContracting := [0]
  lhsNonContracting := [0]
  rhsNonContracting := [1]
  lhsBatch := []
  rhsBatch := []
  wf := dot_S50000x32_S32x32_S50000x32_1_0_0_1_n_n_wf
def dot_S50000x32_S32x768_S50000x768_1_0_0_1_n_n : DotDims S50000x32 S32x768 S50000x768 where
  lhsContracting := [1]
  rhsContracting := [0]
  lhsNonContracting := [0]
  rhsNonContracting := [1]
  lhsBatch := []
  rhsBatch := []
  wf := dot_S50000x32_S32x768_S50000x768_1_0_0_1_n_n_wf
def dot_S50000x256x3_S50000x9x3_S50000x256x9_2_2_1_1_0_0 : DotDims S50000x256x3 S50000x9x3 S50000x256x9 where
  lhsContracting := [2]
  rhsContracting := [2]
  lhsNonContracting := [1]
  rhsNonContracting := [1]
  lhsBatch := [0]
  rhsBatch := [0]
  wf := dot_S50000x256x3_S50000x9x3_S50000x256x9_2_2_1_1_0_0_wf

class Facts : Prop extends Facts₀ where

variable [Facts]
-- ==== Proof.EdgeTensor.lean ====
/-
  The mathematics that both programs compute, with no program in sight.

  An edge carries 33 features u. Three affine layers, the first two followed by a maximum with zero, turn
  them into 768 radial weights (radial). The weights are indexed by a pair of channels (co, ci), 16 each,
  and a basis function n of 3; an edge also carries a 3 x 3 x 3 basis (doe, die, n). The edge's 48 x 48 tensor
  at row r = 3 co + doe and column c = 3 ci + die is the sum over the three basis functions of the radial
  weight of (co, ci, n) times the basis entry (doe, die, n): tensorAt.

  Two orders of the 768 columns occur. The channel pair is major and the basis function minor in one
  (refCol: column 3 (16 co + ci) + n); the basis function is major in the other (kerCol: column
  256 n + 16 co + ci), and perm768 carries a position of the second order to the column of the first that it
  holds. The same for the 27 basis entries (kerBas, basRow, basCol, basFn). A network whose last layer has
  its columns permuted is the network read at the permuted column (radial_perm), and the sum of three
  products accumulated one at a time onto zero is the sum over the three (accumulated_eq): nothing here
  needs a finite value, only that addition on the extended reals has a zero and is associative.
-/
import Idealize.ShloMosaic.PureOps.Ideal
import Idealize.ShloMosaic.PureOps.Ideal.Laws
import Idealize.ShloMosaic.Lib.ValueIdx

noncomputable section

namespace Cert.EdgeTensor

open Idealize.ShloMosaic Idealize.ShloMosaic.ValueIdx

/-- The f32 word of zeros, as the extended real it denotes. -/
abbrev zw : EReal := Ideal.ofBits .f32 0x00000000#32

/-- First layer: max (u w1 + b1, 0). -/
def hid1 (w1 : Fin 33 → Fin 32 → EReal) (b1 : Fin 32 → EReal) (u : Fin 33 → EReal) (j : Fin 32) : EReal :=
  max ((∑ k : Fin 33, u k * w1 k j) + b1 j) zw

/-- Second layer: max (hid1 w2 + b2, 0). -/
def hid2 (w1 : Fin 33 → Fin 32 → EReal) (b1 : Fin 32 → EReal) (w2 : Fin 32 → Fin 32 → EReal) (b2 : Fin 32 → EReal)
    (u : Fin 33 → EReal) (j : Fin 32) : EReal :=
  max ((∑ k : Fin 32, hid1 w1 b1 u k * w2 k j) + b2 j) zw

/-- Third layer, no maximum: the 768 radial weights hid2 w3 + b3. -/
def radial (w1 : Fin 33 → Fin 32 → EReal) (b1 : Fin 32 → EReal) (w2 : Fin 32 → Fin 32 → EReal) (b2 : Fin 32 → EReal)
    (w3 : Fin 32 → Fin 768 → EReal) (b3 : Fin 768 → EReal) (u : Fin 33 → EReal) (q : Fin 768) : EReal :=
  (∑ k : Fin 32, hid2 w1 b1 w2 b2 u k * w3 k q) + b3 q

/-- Permuting the last layer's columns permutes the radial weights. -/
theorem radial_perm (w1 : Fin 33 → Fin 32 → EReal) (b1 : Fin 32 → EReal) (w2 : Fin 32 → Fin 32 → EReal) (b2 : Fin 32 → EReal)
    (w3 : Fin 32 → Fin 768 → EReal) (b3 : Fin 768 → EReal) (σ : Fin 768 → Fin 768) (u : Fin 33 → EReal) (q : Fin 768) :
    radial w1 b1 w2 b2 (fun k q' => w3 k (σ q')) (fun q' => b3 (σ q')) u q = radial w1 b1 w2 b2 w3 b3 u (σ q) := rfl

/-! ## The orders of the columns -/

/-- A row or column of the 48 is 3 channel + offset: the offset. -/
def rem3 (r : Fin 48) : Fin 3 := ⟨r.val % 3, Nat.mod_lt _ (by decide)⟩

/-- A row or column of the 48 is 3 channel + offset: the channel. -/
def div3 (r : Fin 48) : Fin 16 := ⟨r.val / 3, by have := r.isLt; omega⟩

/-- The channel pair of row r and column c, as one number below 256. -/
def pair (r c : Fin 48) : Fin 256 := ⟨(r.val / 3) * 16 + c.val / 3, by have := r.isLt; have := c.isLt; omega⟩

/-- The offset pair of row r and column c, as one number below 9. -/
def off (r c : Fin 48) : Fin 9 := ⟨(r.val % 3) * 3 + c.val % 3, by omega⟩

/-- The column of (r / 3, c / 3, n) with the channel pair major. -/
def refCol (r c : Fin 48) (n : Fin 3) : Fin 768 :=
  ⟨((r.val / 3) * 16 + c.val / 3) * 3 + n.val, by have := r.isLt; have := c.isLt; have := n.isLt; omega⟩

/-- The column of (r / 3, c / 3, n) with the basis function major. -/
def kerCol (n : Fin 3) (r c : Fin 48) : Fin 768 :=
  ⟨n.val * 256 + ((r.val / 3) * 16 + c.val / 3), by have := r.isLt; have := c.isLt; have := n.isLt; omega⟩

/-- Position 256 n + k of the basis-function-major order holds column 3 k + n. -/
def perm768 (q : Fin 768) : Fin 768 := ⟨(q.val % 256) * 3 + q.val / 256, by have := q.isLt; omega⟩

theorem perm768_kerCol (n : Fin 3) (r c : Fin 48) : perm768 (kerCol n r c) = refCol r c n := by
  apply Fin.ext
  show (n.val * 256 + ((r.val / 3) * 16 + c.val / 3)) % 256 * 3 + (n.val * 256 + ((r.val / 3) * 16 + c.val / 3)) / 256
    = ((r.val / 3) * 16 + c.val / 3) * 3 + n.val
  have := r.isLt; have := c.isLt; have := n.isLt; omega

/-- The basis entry (r % 3, c % 3, n) among 27 with the basis function major. -/
def kerBas (n : Fin 3) (r c : Fin 48) : Fin 27 :=
  ⟨n.val * 9 + ((r.val % 3) * 3 + c.val % 3), by have := n.isLt; omega⟩

/-- Position 9 n + 3 doe + die of that order: its doe, -/
def basRow (d : Fin 27) : Fin 3 := ⟨d.val % 9 / 3, by omega⟩
/-- its die, -/
def basCol (d : Fin 27) : Fin 3 := ⟨d.val % 9 % 3, by omega⟩
/-- and its basis function. -/
def basFn (d : Fin 27) : Fin 3 := ⟨d.val / 9, by have := d.isLt; omega⟩

theorem basRow_kerBas (n : Fin 3) (r c : Fin 48) : basRow (kerBas n r c) = rem3 r := by
  apply Fin.ext
  show (n.val * 9 + ((r.val % 3) * 3 + c.val % 3)) % 9 / 3 = r.val % 3
  omega

theorem basCol_kerBas (n : Fin 3) (r c : Fin 48) : basCol (kerBas n r c) = rem3 c := by
  apply Fin.ext
  show (n.val * 9 + ((r.val % 3) * 3 + c.val % 3)) % 9 % 3 = c.val % 3
  omega

theorem basFn_kerBas (n : Fin 3) (r c : Fin 48) : basFn (kerBas n r c) = n := by
  apply Fin.ext
  show (n.val * 9 + ((r.val % 3) * 3 + c.val % 3)) / 9 = n.val
  omega

/-! ## The tensor, and the two ways of summing it -/

/-- The three products accumulated one after the other onto zero, the 768 weights and the 27 basis entries
    both with the basis function major. -/
def accumulated (radP : Fin 768 → EReal) (basP : Fin 27 → EReal) (r c : Fin 48) : EReal :=
  ((zw + radP (kerCol 0 r c) * basP (kerBas 0 r c)) + radP (kerCol 1 r c) * basP (kerBas 1 r c))
    + radP (kerCol 2 r c) * basP (kerBas 2 r c)

/-- Accumulating onto zero is summing: 0 + x = x and the sum over three is the first two and then the third. -/
theorem accumulated_eq (radP : Fin 768 → EReal) (basP : Fin 27 → EReal) (r c : Fin 48) (rad bas : Fin 3 → EReal)
    (hrad : ∀ n, radP (kerCol n r c) = rad n) (hbas : ∀ n, basP (kerBas n r c) = bas n) :
    accumulated radP basP r c = ∑ n : Fin 3, rad n * bas n := by
  unfold accumulated zw
  rw [hrad 0, hrad 1, hrad 2, hbas 0, hbas 1, hbas 2, Fin.sum_univ_three, Ideal.ofBits_zero_f32, zero_add]

/-- The edge's tensor at row r and column c: over the three basis functions, the radial weight of
    (r / 3, c / 3, n) times the basis entry (r % 3, c % 3, n). -/
def tensorAt (rad : Fin 768 → EReal) (bas : Fin 3 → Fin 3 → Fin 3 → EReal) (r c : Fin 48) : EReal :=
  ∑ n : Fin 3, rad (refCol r c n) * bas (rem3 r) (rem3 c) n

/-- One entry of the whole result, from the eight argument arrays: edge b, row r, column c. -/
def tensor (x0 : (⟨2, ![50000, 33]⟩ : Shape).Idx → EReal) (x1 : (⟨4, ![50000, 3, 3, 3]⟩ : Shape).Idx → EReal)
    (x2 : (⟨2, ![33, 32]⟩ : Shape).Idx → EReal) (x3 : (⟨1, ![32]⟩ : Shape).Idx → EReal)
    (x4 : (⟨2, ![32, 32]⟩ : Shape).Idx → EReal) (x5 : (⟨1, ![32]⟩ : Shape).Idx → EReal)
    (x6 : (⟨2, ![32, 768]⟩ : Shape).Idx → EReal) (x7 : (⟨1, ![768]⟩ : Shape).Idx → EReal)
    (b : Fin 50000) (r c : Fin 48) : EReal :=
  tensorAt (radial (fun k j => x2 (ix2 k j)) (fun j => x3 (ix1 j)) (fun k j => x4 (ix2 k j)) (fun j => x5 (ix1 j))
      (fun k q => x6 (ix2 k q)) (fun q => x7 (ix1 q)) (fun k => x0 (ix2 b k)))
    (fun doe die n => x1 (ix4 b doe die n)) r c

/-- The same as an array of shape 50000 x 48 x 48. -/
def tensorArr (x0 : (⟨2, ![50000, 33]⟩ : Shape).Idx → EReal) (x1 : (⟨4, ![50000, 3, 3, 3]⟩ : Shape).Idx → EReal)
    (x2 : (⟨2, ![33, 32]⟩ : Shape).Idx → EReal) (x3 : (⟨1, ![32]⟩ : Shape).Idx → EReal)
    (x4 : (⟨2, ![32, 32]⟩ : Shape).Idx → EReal) (x5 : (⟨1, ![32]⟩ : Shape).Idx → EReal)
    (x6 : (⟨2, ![32, 768]⟩ : Shape).Idx → EReal) (x7 : (⟨1, ![768]⟩ : Shape).Idx → EReal) :
    (⟨3, ![50000, 48, 48]⟩ : Shape).Idx → EReal :=
  fun i => tensor x0 x1 x2 x3 x4 x5 x6 x7 (i 0) (i 1) (i 2)

theorem tensorArr_ix3 (x0 : (⟨2, ![50000, 33]⟩ : Shape).Idx → EReal) (x1 : (⟨4, ![50000, 3, 3, 3]⟩ : Shape).Idx → EReal)
    (x2 : (⟨2, ![33, 32]⟩ : Shape).Idx → EReal) (x3 : (⟨1, ![32]⟩ : Shape).Idx → EReal)
    (x4 : (⟨2, ![32, 32]⟩ : Shape).Idx → EReal) (x5 : (⟨1, ![32]⟩ : Shape).Idx → EReal)
    (x6 : (⟨2, ![32, 768]⟩ : Shape).Idx → EReal) (x7 : (⟨1, ![768]⟩ : Shape).Idx → EReal)
    (b : Fin 50000) (r c : Fin 48) :
    tensorArr x0 x1 x2 x3 x4 x5 x6 x7 (ix3 b r c) = tensor x0 x1 x2 x3 x4 x5 x6 x7 b r c := rfl

end Cert.EdgeTensor

end
-- ==== Proof.ReferenceTensor.lean ====
/-
  The reference computes the edge tensor.

  Its three affine layers are read one at a time into hid1, hid2 and radial of the edge's features; the reshape
  of the 768 weights to 256 x 3 puts weight 3 k + n at (k, n); the reshape of the basis to 9 x 3 puts entry
  (doe, die, n) at (3 doe + die, n); the contraction over n gives, at channel pair k and offset pair d, the sum
  over n of weight (k, n) times basis (d, n); and the last reshape, transpose and reshape put the entry of
  (co, ci, doe, die) at row 3 co + doe and column 3 ci + die. So the result at (b, r, c) is the sum over n of
  the radial weight refCol r c n times the basis entry (r % 3, c % 3, n): the tensor of the specification.
-/
import proofs.«153429_j32813550141520_1_alg».proof.Proof.Gen.ReferenceIdeal.Read
import proofs.«153429_j32813550141520_1_alg».proof.Proof.EdgeTensor

noncomputable section

namespace Cert.ReferenceIdeal.RefValue

open Cert.ReferenceIdeal Cert.ReferenceIdeal.Gen Cert.ReferenceIdeal.Read Cert.EdgeTensor
open Idealize.ShloMosaic Idealize.ShloMosaic.ValueIdx

variable (x0 : FVec Ideal S50000x33 .f32) (x1 : FVec Ideal S50000x3x3x3 .f32) (x2 : FVec Ideal S33x32 .f32)
  (x3 : FVec Ideal S32 .f32) (x4 : FVec Ideal S32x32 .f32) (x5 : FVec Ideal S32 .f32) (x6 : FVec Ideal S32x768 .f32)
  (x7 : FVec Ideal S768 .f32)

/-! ## The index maps of the three products and of the bias broadcasts, at an index given by coordinates -/

theorem lidx0 (b : Fin 50000) (j : Fin 32) (k : Fin 33) : lidx_main_v0 (ix2 b j) k = ix2 b k :=
  funext fun a => Fin.ext (by match a with | ⟨0, _⟩ => rfl | ⟨1, _⟩ => rfl)
theorem ridx0 (b : Fin 50000) (j : Fin 32) (k : Fin 33) : ridx_main_v0 (ix2 b j) k = ix2 k j :=
  funext fun a => Fin.ext (by match a with | ⟨0, _⟩ => rfl | ⟨1, _⟩ => rfl)
theorem bias1 (b : Fin 50000) (j : Fin 32) : idx_main_v1 (idx_main_v2 (ix2 b j)) = ix1 j :=
  funext fun a => Fin.ext (by match a with | ⟨0, _⟩ => rfl)

theorem lidx5 (b : Fin 50000) (j : Fin 32) (k : Fin 32) : lidx_main_v5 (ix2 b j) k = ix2 b k :=
  funext fun a => Fin.ext (by match a with | ⟨0, _⟩ => rfl | ⟨1, _⟩ => rfl)
theorem ridx5 (b : Fin 50000) (j : Fin 32) (k : Fin 32) : ridx_main_v5 (ix2 b j) k = ix2 k j :=
  funext fun a => Fin.ext (by match a with | ⟨0, _⟩ => rfl | ⟨1, _⟩ => rfl)
theorem bias2 (b : Fin 50000) (j : Fin 32) : idx_main_v6 (idx_main_v7 (ix2 b j)) = ix1 j :=
  funext fun a => Fin.ext (by match a with | ⟨0, _⟩ => rfl)

theorem lidx10 (b : Fin 50000) (q : Fin 768) (k : Fin 32) : lidx_main_v10 (ix2 b q) k = ix2 b k :=
  funext fun a => Fin.ext (by match a with | ⟨0, _⟩ => rfl | ⟨1, _⟩ => rfl)
theorem ridx10 (b : Fin 50000) (q : Fin 768) (k : Fin 32) : ridx_main_v10 (ix2 b q) k = ix2 k q :=
  funext fun a => Fin.ext (by match a with | ⟨0, _⟩ => rfl | ⟨1, _⟩ => rfl)
theorem bias3 (b : Fin 50000) (q : Fin 768) : idx_main_v11 (idx_main_v12 (ix2 b q)) = ix1 q :=
  funext fun a => Fin.ext (by match a with | ⟨0, _⟩ => rfl)

/-! ## The three layers -/

/-- The first layer with its maximum, at edge b and unit j. -/
theorem layer1 (b : Fin 50000) (j : Fin 32) :
    val_main_v4 (F := Ideal) x0 x2 x3 (ix2 b j)
      = hid1 (fun k j => x2 (ix2 k j)) (fun j => x3 (ix1 j)) (fun k => x0 (ix2 b k)) j := by
  rw [val_main_v4_apply, val_main_v3_apply, val_main_v0_apply, val_main_v2_apply, val_main_v1_apply,
    val_main_call0_v0_apply, val_main_call0_cst_apply]
  simp only [lidx0, ridx0, bias1]
  rfl

/-- The second layer with its maximum. -/
theorem layer2 (b : Fin 50000) (j : Fin 32) :
    val_main_v9 (F := Ideal) x0 x2 x3 x4 x5 (ix2 b j)
      = hid2 (fun k j => x2 (ix2 k j)) (fun j => x3 (ix1 j)) (fun k j => x4 (ix2 k j)) (fun j => x5 (ix1 j))
          (fun k => x0 (ix2 b k)) j := by
  rw [val_main_v9_apply, val_main_v8_apply, val_main_v5_apply, val_main_v7_apply, val_main_v6_apply,
    val_main_call1_v0_apply, val_main_call1_cst_apply]
  simp only [lidx5, ridx5, bias2, layer1]
  rfl

/-- The third layer: the 768 radial weights of edge b. -/
theorem layer3 (b : Fin 50000) (q : Fin 768) :
    val_main_v13 (F := Ideal) x0 x2 x3 x4 x5 x6 x7 (ix2 b q)
      = radial (fun k j => x2 (ix2 k j)) (fun j => x3 (ix1 j)) (fun k j => x4 (ix2 k j)) (fun j => x5 (ix1 j))
          (fun k q => x6 (ix2 k q)) (fun q => x7 (ix1 q)) (fun k => x0 (ix2 b k)) q := by
  rw [val_main_v13_apply, val_main_v10_apply, val_main_v12_apply, val_main_v11_apply]
  simp only [lidx10, ridx10, bias3, layer2]
  rfl

/-! ## The reshapes and the transpose around the contraction over the basis functions -/

/-- Row r and column c of the 48 x 48 are (r / 3, r % 3) and (c / 3, c % 3) of the 16 x 3 x 16 x 3. -/
theorem split48 (b : Fin 50000) (r c : Fin 48) :
    idx_main_v19 (ix3 b r c) = ix5 b (div3 r) (rem3 r) (div3 c) (rem3 c) := by
  have hr := r.isLt; have hc := c.isLt; have hb := b.isLt
  funext a; apply Fin.ext
  match a with
  | ⟨0, _⟩ => show ((b.val * 48 + r.val) * 48 + c.val) / 2304 = b.val; omega
  | ⟨1, _⟩ => show ((b.val * 48 + r.val) * 48 + c.val) / 144 % 16 = r.val / 3; omega
  | ⟨2, _⟩ => show ((b.val * 48 + r.val) * 48 + c.val) / 48 % 3 = r.val % 3; omega
  | ⟨3, _⟩ => show ((b.val * 48 + r.val) * 48 + c.val) / 3 % 16 = c.val / 3; omega
  | ⟨4, _⟩ => show ((b.val * 48 + r.val) * 48 + c.val) % 3 = c.val % 3; omega

/-- The transpose exchanges the two middle axes. -/
theorem swap_mid (b : Fin 50000) (co : Fin 16) (doe : Fin 3) (ci : Fin 16) (die : Fin 3) :
    idx_main_v18 (ix5 b co doe ci die) = ix5 b co ci doe die :=
  funext fun a => Fin.ext (by
    match a with | ⟨0, _⟩ => rfl | ⟨1, _⟩ => rfl | ⟨2, _⟩ => rfl | ⟨3, _⟩ => rfl | ⟨4, _⟩ => rfl)

/-- The two channels as one pair, the two offsets as one pair. -/
theorem join_pairs (b : Fin 50000) (r c : Fin 48) :
    idx_main_v17 (ix5 b (div3 r) (div3 c) (rem3 r) (rem3 c)) = ix3 b (pair r c) (off r c) := by
  have hr := r.isLt; have hc := c.isLt; have hb := b.isLt
  funext a; apply Fin.ext
  match a with
  | ⟨0, _⟩ =>
    show ((((b.val * 16 + r.val / 3) * 16 + c.val / 3) * 3 + r.val % 3) * 3 + c.val % 3) / 2304 = b.val; omega
  | ⟨1, _⟩ =>
    show ((((b.val * 16 + r.val / 3) * 16 + c.val / 3) * 3 + r.val % 3) * 3 + c.val % 3) / 9 % 256
      = r.val / 3 * 16 + c.val / 3; omega
  | ⟨2, _⟩ =>
    show ((((b.val * 16 + r.val / 3) * 16 + c.val / 3) * 3 + r.val % 3) * 3 + c.val % 3) % 9
      = r.val % 3 * 3 + c.val % 3; omega

theorem lidx16 (b : Fin 50000) (k : Fin 256) (d : Fin 9) (n : Fin 3) : lidx_main_v16 (ix3 b k d) n = ix3 b k n :=
  funext fun a => Fin.ext (by match a with | ⟨0, _⟩ => rfl | ⟨1, _⟩ => rfl | ⟨2, _⟩ => rfl)
theorem ridx16 (b : Fin 50000) (k : Fin 256) (d : Fin 9) (n : Fin 3) : ridx_main_v16 (ix3 b k d) n = ix3 b d n :=
  funext fun a => Fin.ext (by match a with | ⟨0, _⟩ => rfl | ⟨1, _⟩ => rfl | ⟨2, _⟩ => rfl)

/-- Weight (pair, n) of the 256 x 3 is column 3 pair + n of the 768. -/
theorem weight_col (b : Fin 50000) (r c : Fin 48) (n : Fin 3) :
    idx_main_v14 (ix3 b (pair r c) n) = ix2 b (refCol r c n) := by
  have hr := r.isLt; have hc := c.isLt; have hb := b.isLt; have hn := n.isLt
  funext a; apply Fin.ext
  match a with
  | ⟨0, _⟩ => show ((b.val * 256 + (r.val / 3 * 16 + c.val / 3)) * 3 + n.val) / 768 = b.val; omega
  | ⟨1, _⟩ =>
    show ((b.val * 256 + (r.val / 3 * 16 + c.val / 3)) * 3 + n.val) % 768 = (r.val / 3 * 16 + c.val / 3) * 3 + n.val
    omega

/-- Basis entry (offset pair, n) of the 9 x 3 is entry (r % 3, c % 3, n) of the 3 x 3 x 3. -/
theorem basis_entry (b : Fin 50000) (r c : Fin 48) (n : Fin 3) :
    idx_main_v15 (ix3 b (off r c) n) = ix4 b (rem3 r) (rem3 c) n := by
  have hb := b.isLt; have hn := n.isLt
  funext a; apply Fin.ext
  match a with
  | ⟨0, _⟩ => show ((b.val * 9 + (r.val % 3 * 3 + c.val % 3)) * 3 + n.val) / 27 = b.val; omega
  | ⟨1, _⟩ => show ((b.val * 9 + (r.val % 3 * 3 + c.val % 3)) * 3 + n.val) / 9 % 3 = r.val % 3; omega
  | ⟨2, _⟩ => show ((b.val * 9 + (r.val % 3 * 3 + c.val % 3)) * 3 + n.val) / 3 % 3 = c.val % 3; omega
  | ⟨3, _⟩ => show ((b.val * 9 + (r.val % 3 * 3 + c.val % 3)) * 3 + n.val) % 3 = n.val; omega

/-! ## The whole reference -/

/-- The reference's result is the tensor of the specification, entry by entry. -/
theorem result_eq :
    val_main_v19 (F := Ideal) x0 x1 x2 x3 x4 x5 x6 x7 = tensorArr x0 x1 x2 x3 x4 x5 x6 x7 := by
  funext i
  obtain ⟨b, r, c, rfl⟩ : ∃ (b : Fin 50000) (r c : Fin 48), i = ix3 b r c := ⟨i 0, i 1, i 2, eq_ix3 i⟩
  rw [tensorArr_ix3, val_main_v19_apply, val_main_v18_apply, val_main_v17_apply, val_main_v16_apply,
    split48, swap_mid, join_pairs]
  unfold tensor tensorAt
  refine Finset.sum_congr rfl fun n _ => ?_
  rw [val_main_v14_apply, val_main_v15_apply, lidx16, ridx16, weight_col, basis_entry, layer3]

end Cert.ReferenceIdeal.RefValue

end
-- ==== Proof.BodyTensor.lean ====
/-
  What the kernel's body stores, at an index of its block, as a function of the blocks it loads.

  A block is 200 edges. The body runs the three layers on the 200 x 33 block of features, with the last layer's
  columns and bias in the basis-function-major order: radial_block. It then forms, for each basis function n,
  the 256 weights of columns 256 n .. 256 n + 255 as 16 x 16 and repeats every entry over a 3 x 3 square (spread:
  entry (r, c) of the 48 x 48 is entry (r / 3, c / 3) of the 16 x 16); and the 9 basis entries 9 n .. 9 n + 8 as
  3 x 3, tiled 16 x 16 times (tiled: entry (r, c) is entry (r % 3, c % 3) of the 3 x 3). The three products of the
  two are added one after the other onto a block of zeros: the accumulated sum of the specification.

  A change of float format is the identity on the extended reals, so the roundings to bf16 in front of each
  product do not appear in what is computed.
-/
import proofs.«153429_j32813550141520_1_alg».proof.Proof.Gen.KernelIdeal.Skeleton
import proofs.«153429_j32813550141520_1_alg».proof.Proof.EdgeTensor
import Idealize.ShloMosaic.Lib.Pipeline.Value
import Idealize.ShloMosaic.Lib.ValueLayout
import Idealize.ShloMosaic.Lib.ValueIdx
import Idealize.ShloMosaic.PureOps.Ideal.Laws

noncomputable section

namespace Cert.KernelIdeal.BodyValue

open Cert.KernelIdeal Cert.KernelIdeal.Gen Cert.EdgeTensor
open Idealize.ShloMosaic Idealize.ShloMosaic.ValueIdx

/-! ## Layout operations of the body, read at an index given by coordinates -/

section Layout
variable {α : Type}

/-- A unit axis put between channel and channel: (p, co, 0, ci) is (p, co, ci). -/
theorem cast_unit_mid (v : S200x16x16.Idx → α) (h : S200x16x16.ShapeCasts S200x16x1x16)
    (p : Fin 200) (co : Fin 16) (u : Fin 1) (ci : Fin 16) :
    shapeCast S200x16x1x16 v h (ix4 p co u ci) = v (ix3 p co ci) :=
  shapeCast_apply v h _ _ (by
    have hu : u.val = 0 := by omega
    rw [Shape.rowMajor_val_three, Shape.rowMajor_val_four]
    show (p.val * 16 + co.val) * 16 + ci.val = ((p.val * 16 + co.val) * 1 + u.val) * 16 + ci.val
    omega)

/-- The unit axis repeated three times: every copy is the one entry. -/
theorem spread_mid (v : S200x16x1x16.Idx → α) (h : S200x16x1x16.Broadcasts S200x16x3x16)
    (p : Fin 200) (co : Fin 16) (d : Fin 3) (ci : Fin 16) :
    broadcastTo S200x16x3x16 v h (ix4 p co d ci) = v (ix4 p co (0 : Fin 1) ci) :=
  broadcastTo_apply v h (ix4 p co d ci) (ix4 p co (0 : Fin 1) ci) fun ax => by
    match ax with
    | ⟨0, _⟩ => rfl
    | ⟨1, _⟩ => rfl
    | ⟨2, _⟩ => rfl
    | ⟨3, _⟩ => rfl

/-- Channel and copy as one row: row r is (r / 3, r % 3). -/
theorem cast_merge_rows (v : S200x16x3x16.Idx → α) (h : S200x16x3x16.ShapeCasts S200x48x16)
    (p : Fin 200) (r : Fin 48) (ci : Fin 16) :
    shapeCast S200x48x16 v h (ix3 p r ci) = v (ix4 p (div3 r) (rem3 r) ci) :=
  shapeCast_apply v h _ _ (by
    rw [Shape.rowMajor_val_four, Shape.rowMajor_val_three]
    show ((p.val * 16 + r.val / 3) * 3 + r.val % 3) * 16 + ci.val = (p.val * 48 + r.val) * 16 + ci.val
    omega)

/-- A unit axis put last. -/
theorem cast_unit_last (v : S200x48x16.Idx → α) (h : S200x48x16.ShapeCasts S200x48x16x1)
    (p : Fin 200) (r : Fin 48) (ci : Fin 16) (u : Fin 1) :
    shapeCast S200x48x16x1 v h (ix4 p r ci u) = v (ix3 p r ci) :=
  shapeCast_apply v h _ _ (by
    have hu : u.val = 0 := by omega
    rw [Shape.rowMajor_val_three, Shape.rowMajor_val_four]
    show (p.val * 48 + r.val) * 16 + ci.val = ((p.val * 48 + r.val) * 16 + ci.val) * 1 + u.val
    omega)

/-- The last unit axis repeated three times. -/
theorem spread_last (v : S200x48x16x1.Idx → α) (h : S200x48x16x1.Broadcasts S200x48x16x3)
    (p : Fin 200) (r : Fin 48) (ci : Fin 16) (e : Fin 3) :
    broadcastTo S200x48x16x3 v h (ix4 p r ci e) = v (ix4 p r ci (0 : Fin 1)) :=
  broadcastTo_apply v h (ix4 p r ci e) (ix4 p r ci (0 : Fin 1)) fun ax => by
    match ax with
    | ⟨0, _⟩ => rfl
    | ⟨1, _⟩ => rfl
    | ⟨2, _⟩ => rfl
    | ⟨3, _⟩ => rfl

/-- Channel and copy as one column: column c is (c / 3, c % 3). -/
theorem cast_merge_cols (v : S200x48x16x3.Idx → α) (h : S200x48x16x3.ShapeCasts S200x48x48)
    (p : Fin 200) (r c : Fin 48) :
    shapeCast S200x48x48 v h (ix3 p r c) = v (ix4 p r (div3 c) (rem3 c)) :=
  shapeCast_apply v h _ _ (by
    rw [Shape.rowMajor_val_four, Shape.rowMajor_val_three]
    show ((p.val * 48 + r.val) * 16 + c.val / 3) * 3 + c.val % 3 = (p.val * 48 + r.val) * 48 + c.val
    omega)

/-- 256 columns as 16 x 16. -/
theorem cast_pair (v : S200x256.Idx → α) (h : S200x256.ShapeCasts S200x16x16) (p : Fin 200) (co ci : Fin 16)
    (k : Fin 256) (hk : k.val = co.val * 16 + ci.val) :
    shapeCast S200x16x16 v h (ix3 p co ci) = v (ix2 p k) :=
  shapeCast_apply v h _ _ (by
    rw [Shape.rowMajor_val_two, Shape.rowMajor_val_three]
    show p.val * 256 + k.val = (p.val * 16 + co.val) * 16 + ci.val
    omega)

/-- 9 columns as 3 x 3. -/
theorem cast_off (v : S200x9.Idx → α) (h : S200x9.ShapeCasts S200x3x3) (p : Fin 200) (doe die : Fin 3)
    (k : Fin 9) (hk : k.val = doe.val * 3 + die.val) :
    shapeCast S200x3x3 v h (ix3 p doe die) = v (ix2 p k) :=
  shapeCast_apply v h _ _ (by
    rw [Shape.rowMajor_val_two, Shape.rowMajor_val_three]
    show p.val * 9 + k.val = (p.val * 3 + doe.val) * 3 + die.val
    omega)

/-- Sixteen copies of a 3 x 3 stacked along the rows: row r is row r % 3. -/
theorem tile_rows (v : S200x3x3.Idx → α)
    (h : Shape.Concatenates ((List.replicate 16 (⟨S200x3x3, v⟩ : (s : Shape) × (s.Idx → α))).map (·.1)) S200x48x3 1)
    (p : Fin 200) (r : Fin 48) (e : Fin 3) :
    concatenate S200x48x3 1 (List.replicate 16 (⟨S200x3x3, v⟩ : (s : Shape) × (s.Idx → α))) h (ix3 p r e)
      = v (ix3 p (rem3 r) e) :=
  concatenate_replicate_apply (t := S200x48x3) (s₁ := S200x3x3) (1 : Fin 3) 16 v h rfl (ix3 p r e) (ix3 p (rem3 r) e) rfl (fun b hb => by
    match b with
    | ⟨0, _⟩ => rfl
    | ⟨1, _⟩ => exact absurd rfl hb
    | ⟨2, _⟩ => rfl)

/-- Sixteen copies of a 48 x 3 side by side: column c is column c % 3. -/
theorem tile_cols (v : S200x48x3.Idx → α)
    (h : Shape.Concatenates ((List.replicate 16 (⟨S200x48x3, v⟩ : (s : Shape) × (s.Idx → α))).map (·.1)) S200x48x48 2)
    (p : Fin 200) (r c : Fin 48) :
    concatenate S200x48x48 2 (List.replicate 16 (⟨S200x48x3, v⟩ : (s : Shape) × (s.Idx → α))) h (ix3 p r c)
      = v (ix3 p r (rem3 c)) :=
  concatenate_replicate_apply (t := S200x48x48) (s₁ := S200x48x3) (2 : Fin 3) 16 v h rfl (ix3 p r c) (ix3 p r (rem3 c)) rfl (fun b hb => by
    match b with
    | ⟨0, _⟩ => rfl
    | ⟨1, _⟩ => rfl
    | ⟨2, _⟩ => exact absurd rfl hb)

end Layout

/-! ## The three products as sums -/

theorem lhsA_0 (i : S200x32.Idx) (q : dot_S200x33_S33x32_S200x32_1_0_0_1_n_n.contr.Idx) : (dot_S200x33_S33x32_S200x32_1_0_0_1_n_n.lhsIdx i q 0).val = (i 0).val := by
  unfold DotDims.lhsIdx
  rw [dif_neg (show ¬(0 : Fin S200x33.rank) ∈ dot_S200x33_S33x32_S200x32_1_0_0_1_n_n.lhsBatch by decide), dif_pos (show (0 : Fin S200x33.rank) ∈ dot_S200x33_S33x32_S200x32_1_0_0_1_n_n.lhsNonContracting by decide)]
  rfl
theorem lhsA_1 (i : S200x32.Idx) (q : dot_S200x33_S33x32_S200x32_1_0_0_1_n_n.contr.Idx) : (dot_S200x33_S33x32_S200x32_1_0_0_1_n_n.lhsIdx i q 1).val = (q ⟨0, by decide⟩).val :=
  dot_S200x33_S33x32_S200x32_1_0_0_1_n_n.lhsIdx_val_of_single rfl i q
theorem rhsA_0 (i : S200x32.Idx) (q : dot_S200x33_S33x32_S200x32_1_0_0_1_n_n.contr.Idx) : (dot_S200x33_S33x32_S200x32_1_0_0_1_n_n.rhsIdx i q 0).val = (q ⟨0, by decide⟩).val :=
  dot_S200x33_S33x32_S200x32_1_0_0_1_n_n.rhsIdx_val_of_single rfl i q
theorem rhsA_1 (i : S200x32.Idx) (q : dot_S200x33_S33x32_S200x32_1_0_0_1_n_n.contr.Idx) : (dot_S200x33_S33x32_S200x32_1_0_0_1_n_n.rhsIdx i q 1).val = (i 1).val := by
  unfold DotDims.rhsIdx
  rw [dif_neg (show ¬(1 : Fin S33x32.rank) ∈ dot_S200x33_S33x32_S200x32_1_0_0_1_n_n.rhsBatch by decide), dif_pos (show (1 : Fin S33x32.rank) ∈ dot_S200x33_S33x32_S200x32_1_0_0_1_n_n.rhsNonContracting by decide)]
  rfl

/-- Into a zero accumulator, entry (p, j) of the product is the sum over k of l (p, k) r (k, j). -/
theorem productA (l : FVec Ideal S200x33 .bf16) (r : FVec Ideal S33x32 .bf16) (p : Fin 200) (j : Fin 32) :
    matmul dot_S200x33_S33x32_S200x32_1_0_0_1_n_n none l r (constant (F := Ideal) S200x32 .f32 0x00000000#32) (ix2 p j)
      = ∑ k : Fin 33, l (ix2 p k) * r (ix2 k j) := by
  simp only [matmul]
  rw [Ideal.matmul_constant_zero_apply, ← Equiv.sum_comp (contrEquiv1 dot_S200x33_S33x32_S200x32_1_0_0_1_n_n 33 rfl rfl).symm]
  refine Finset.sum_congr rfl fun k _ => ?_
  have hk := contrEquiv1_symm_val dot_S200x33_S33x32_S200x32_1_0_0_1_n_n 33 rfl rfl k
  have el : dot_S200x33_S33x32_S200x32_1_0_0_1_n_n.lhsIdx (ix2 p j) ((contrEquiv1 dot_S200x33_S33x32_S200x32_1_0_0_1_n_n 33 rfl rfl).symm k) = ix2 p k := funext fun a => Fin.ext (by
    match a with
    | ⟨0, _⟩ => exact lhsA_0 _ _
    | ⟨1, _⟩ => exact (lhsA_1 _ _).trans hk)
  have er : dot_S200x33_S33x32_S200x32_1_0_0_1_n_n.rhsIdx (ix2 p j) ((contrEquiv1 dot_S200x33_S33x32_S200x32_1_0_0_1_n_n 33 rfl rfl).symm k) = ix2 k j := funext fun a => Fin.ext (by
    match a with
    | ⟨0, _⟩ => exact (rhsA_0 _ _).trans hk
    | ⟨1, _⟩ => exact rhsA_1 _ _)
  rw [el, er]

theorem lhsB_0 (i : S200x32.Idx) (q : dot_S200x32_S32x32_S200x32_1_0_0_1_n_n.contr.Idx) : (dot_S200x32_S32x32_S200x32_1_0_0_1_n_n.lhsIdx i q 0).val = (i 0).val := by
  unfold DotDims.lhsIdx
  rw [dif_neg (show ¬(0 : Fin S200x32.rank) ∈ dot_S200x32_S32x32_S200x32_1_0_0_1_n_n.lhsBatch by decide), dif_pos (show (0 : Fin S200x32.rank) ∈ dot_S200x32_S32x32_S200x32_1_0_0_1_n_n.lhsNonContracting by decide)]
  rfl
theorem lhsB_1 (i : S200x32.Idx) (q : dot_S200x32_S32x32_S200x32_1_0_0_1_n_n.contr.Idx) : (dot_S200x32_S32x32_S200x32_1_0_0_1_n_n.lhsIdx i q 1).val = (q ⟨0, by decide⟩).val :=
  dot_S200x32_S32x32_S200x32_1_0_0_1_n_n.lhsIdx_val_of_single rfl i q
theorem rhsB_0 (i : S200x32.Idx) (q : dot_S200x32_S32x32_S200x32_1_0_0_1_n_n.contr.Idx) : (dot_S200x32_S32x32_S200x32_1_0_0_1_n_n.rhsIdx i q 0).val = (q ⟨0, by decide⟩).val :=
  dot_S200x32_S32x32_S200x32_1_0_0_1_n_n.rhsIdx_val_of_single rfl i q
theorem rhsB_1 (i : S200x32.Idx) (q : dot_S200x32_S32x32_S200x32_1_0_0_1_n_n.contr.Idx) : (dot_S200x32_S32x32_S200x32_1_0_0_1_n_n.rhsIdx i q 1).val = (i 1).val := by
  unfold DotDims.rhsIdx
  rw [dif_neg (show ¬(1 : Fin S32x32.rank) ∈ dot_S200x32_S32x32_S200x32_1_0_0_1_n_n.rhsBatch by decide), dif_pos (show (1 : Fin S32x32.rank) ∈ dot_S200x32_S32x32_S200x32_1_0_0_1_n_n.rhsNonContracting by decide)]
  rfl

/-- Into a zero accumulator, entry (p, j) of the product is the sum over k of l (p, k) r (k, j). -/
theorem productB (l : FVec Ideal S200x32 .bf16) (r : FVec Ideal S32x32 .bf16) (p : Fin 200) (j : Fin 32) :
    matmul dot_S200x32_S32x32_S200x32_1_0_0_1_n_n none l r (constant (F := Ideal) S200x32 .f32 0x00000000#32) (ix2 p j)
      = ∑ k : Fin 32, l (ix2 p k) * r (ix2 k j) := by
  simp only [matmul]
  rw [Ideal.matmul_constant_zero_apply, ← Equiv.sum_comp (contrEquiv1 dot_S200x32_S32x32_S200x32_1_0_0_1_n_n 32 rfl rfl).symm]
  refine Finset.sum_congr rfl fun k _ => ?_
  have hk := contrEquiv1_symm_val dot_S200x32_S32x32_S200x32_1_0_0_1_n_n 32 rfl rfl k
  have el : dot_S200x32_S32x32_S200x32_1_0_0_1_n_n.lhsIdx (ix2 p j) ((contrEquiv1 dot_S200x32_S32x32_S200x32_1_0_0_1_n_n 32 rfl rfl).symm k) = ix2 p k := funext fun a => Fin.ext (by
    match a with
    | ⟨0, _⟩ => exact lhsB_0 _ _
    | ⟨1, _⟩ => exact (lhsB_1 _ _).trans hk)
  have er : dot_S200x32_S32x32_S200x32_1_0_0_1_n_n.rhsIdx (ix2 p j) ((contrEquiv1 dot_S200x32_S32x32_S200x32_1_0_0_1_n_n 32 rfl rfl).symm k) = ix2 k j := funext fun a => Fin.ext (by
    match a with
    | ⟨0, _⟩ => exact (rhsB_0 _ _).trans hk
    | ⟨1, _⟩ => exact rhsB_1 _ _)
  rw [el, er]

theorem lhsC_0 (i : S200x768.Idx) (q : dot_S200x32_S32x768_S200x768_1_0_0_1_n_n.contr.Idx) : (dot_S200x32_S32x768_S200x768_1_0_0_1_n_n.lhsIdx i q 0).val = (i 0).val := by
  unfold DotDims.lhsIdx
  rw [dif_neg (show ¬(0 : Fin S200x32.rank) ∈ dot_S200x32_S32x768_S200x768_1_0_0_1_n_n.lhsBatch by decide), dif_pos (show (0 : Fin S200x32.rank) ∈ dot_S200x32_S32x768_S200x768_1_0_0_1_n_n.lhsNonContracting by decide)]
  rfl
theorem lhsC_1 (i : S200x768.Idx) (q : dot_S200x32_S32x768_S200x768_1_0_0_1_n_n.contr.Idx) : (dot_S200x32_S32x768_S200x768_1_0_0_1_n_n.lhsIdx i q 1).val = (q ⟨0, by decide⟩).val :=
  dot_S200x32_S32x768_S200x768_1_0_0_1_n_n.lhsIdx_val_of_single rfl i q
theorem rhsC_0 (i : S200x768.Idx) (q : dot_S200x32_S32x768_S200x768_1_0_0_1_n_n.contr.Idx) : (dot_S200x32_S32x768_S200x768_1_0_0_1_n_n.rhsIdx i q 0).val = (q ⟨0, by decide⟩).val :=
  dot_S200x32_S32x768_S200x768_1_0_0_1_n_n.rhsIdx_val_of_single rfl i q
theorem rhsC_1 (i : S200x768.Idx) (q : dot_S200x32_S32x768_S200x768_1_0_0_1_n_n.contr.Idx) : (dot_S200x32_S32x768_S200x768_1_0_0_1_n_n.rhsIdx i q 1).val = (i 1).val := by
  unfold DotDims.rhsIdx
  rw [dif_neg (show ¬(1 : Fin S32x768.rank) ∈ dot_S200x32_S32x768_S200x768_1_0_0_1_n_n.rhsBatch by decide), dif_pos (show (1 : Fin S32x768.rank) ∈ dot_S200x32_S32x768_S200x768_1_0_0_1_n_n.rhsNonContracting by decide)]
  rfl

/-- Into a zero accumulator, entry (p, j) of the product is the sum over k of l (p, k) r (k, j). -/
theorem productC (l : FVec Ideal S200x32 .bf16) (r : FVec Ideal S32x768 .bf16) (p : Fin 200) (j : Fin 768) :
    matmul dot_S200x32_S32x768_S200x768_1_0_0_1_n_n none l r (constant (F := Ideal) S200x768 .f32 0x00000000#32) (ix2 p j)
      = ∑ k : Fin 32, l (ix2 p k) * r (ix2 k j) := by
  simp only [matmul]
  rw [Ideal.matmul_constant_zero_apply, ← Equiv.sum_comp (contrEquiv1 dot_S200x32_S32x768_S200x768_1_0_0_1_n_n 32 rfl rfl).symm]
  refine Finset.sum_congr rfl fun k _ => ?_
  have hk := contrEquiv1_symm_val dot_S200x32_S32x768_S200x768_1_0_0_1_n_n 32 rfl rfl k
  have el : dot_S200x32_S32x768_S200x768_1_0_0_1_n_n.lhsIdx (ix2 p j) ((contrEquiv1 dot_S200x32_S32x768_S200x768_1_0_0_1_n_n 32 rfl rfl).symm k) = ix2 p k := funext fun a => Fin.ext (by
    match a with
    | ⟨0, _⟩ => exact lhsC_0 _ _
    | ⟨1, _⟩ => exact (lhsC_1 _ _).trans hk)
  have er : dot_S200x32_S32x768_S200x768_1_0_0_1_n_n.rhsIdx (ix2 p j) ((contrEquiv1 dot_S200x32_S32x768_S200x768_1_0_0_1_n_n 32 rfl rfl).symm k) = ix2 k j := funext fun a => Fin.ext (by
    match a with
    | ⟨0, _⟩ => exact (rhsC_0 _ _).trans hk
    | ⟨1, _⟩ => exact rhsC_1 _ _)
  rw [el, er]

/-! ## The network on a block of 200 edges -/

/-- The bias row, cast to its own shape and repeated over the 200 edges. -/
theorem bias_row32 (v : Vec Ideal S1x32 .f32) (p : Fin 200) (j : Fin 32) :
    broadcastTo S200x32 (shapeCast S1x32 v shapeCasts_S1x32_S1x32) broadcasts_S1x32_S200x32 (ix2 p j)
      = v (ix2 (0 : Fin 1) j) := by
  rw [shapeCast_self]
  exact broadcastTo_1b_ab_apply v _ p j

theorem bias_row768 (v : Vec Ideal S1x768 .f32) (p : Fin 200) (q : Fin 768) :
    broadcastTo S200x768 (shapeCast S1x768 v shapeCasts_S1x768_S1x768) broadcasts_S1x768_S200x768 (ix2 p q)
      = v (ix2 (0 : Fin 1) q) := by
  rw [shapeCast_self]
  exact broadcastTo_1b_ab_apply v _ p q

/-- The first layer as the body prints it. -/
def layer1 (v0 : Vec Ideal S200x33 .f32) (v2 : Vec Ideal S33x32 .f32) (v5 : Vec Ideal S1x32 .f32) : FVec Ideal S200x32 .f32 :=
  maximumf (addf (matmul dot_S200x33_S33x32_S200x32_1_0_0_1_n_n none (truncf .bf16 v0 bitsLt_bf16_f32) (truncf .bf16 v2 bitsLt_bf16_f32)
      (constant S200x32 .f32 0x00000000#32)) (broadcastTo S200x32 (shapeCast S1x32 v5 shapeCasts_S1x32_S1x32) broadcasts_S1x32_S200x32))
    (broadcast S200x32 (Scalar.ofBits .f32 0x00000000#32))

theorem layer1_apply (v0 : Vec Ideal S200x33 .f32) (v2 : Vec Ideal S33x32 .f32) (v5 : Vec Ideal S1x32 .f32) (p : Fin 200) (j : Fin 32) :
    layer1 v0 v2 v5 (ix2 p j) = hid1 (fun k j => v2 (ix2 k j)) (fun j => v5 (ix2 (0 : Fin 1) j)) (fun k => v0 (ix2 p k)) j := by
  unfold layer1
  show max (matmul dot_S200x33_S33x32_S200x32_1_0_0_1_n_n none _ _ _ (ix2 p j) + broadcastTo S200x32 _ _ (ix2 p j)) zw = _
  rw [productA, bias_row32]
  rfl

/-- The second layer as the body prints it. -/
def layer2 (v0 : Vec Ideal S200x33 .f32) (v2 : Vec Ideal S33x32 .f32) (v5 : Vec Ideal S1x32 .f32) (v12 : Vec Ideal S32x32 .f32)
    (v15 : Vec Ideal S1x32 .f32) : FVec Ideal S200x32 .f32 :=
  maximumf (addf (matmul dot_S200x32_S32x32_S200x32_1_0_0_1_n_n none (truncf .bf16 (layer1 v0 v2 v5) bitsLt_bf16_f32) (truncf .bf16 v12 bitsLt_bf16_f32)
      (constant S200x32 .f32 0x00000000#32)) (broadcastTo S200x32 (shapeCast S1x32 v15 shapeCasts_S1x32_S1x32) broadcasts_S1x32_S200x32))
    (broadcast S200x32 (Scalar.ofBits .f32 0x00000000#32))

theorem layer2_apply (v0 : Vec Ideal S200x33 .f32) (v2 : Vec Ideal S33x32 .f32) (v5 : Vec Ideal S1x32 .f32) (v12 : Vec Ideal S32x32 .f32)
    (v15 : Vec Ideal S1x32 .f32) (p : Fin 200) (j : Fin 32) :
    layer2 v0 v2 v5 v12 v15 (ix2 p j)
      = hid2 (fun k j => v2 (ix2 k j)) (fun j => v5 (ix2 (0 : Fin 1) j)) (fun k j => v12 (ix2 k j)) (fun j => v15 (ix2 (0 : Fin 1) j))
          (fun k => v0 (ix2 p k)) j := by
  unfold layer2
  show max (matmul dot_S200x32_S32x32_S200x32_1_0_0_1_n_n none _ _ _ (ix2 p j) + broadcastTo S200x32 _ _ (ix2 p j)) zw = _
  rw [productB, bias_row32]
  simp only [truncf_apply, layer1_apply]
  rfl

/-- The body's 200 x 768 weights are its third layer over the first two. -/
theorem pay2_eq (v0 : Vec Ideal S200x33 .f32) (v2 : Vec Ideal S33x32 .f32) (v5 : Vec Ideal S1x32 .f32) (v12 : Vec Ideal S32x32 .f32)
    (v15 : Vec Ideal S1x32 .f32) (v22 : Vec Ideal S32x768 .f32) (v26 : Vec Ideal S1x768 .f32) :
    k0_pay2 v0 v2 v5 v12 v15 v22 v26
      = addf (matmul dot_S200x32_S32x768_S200x768_1_0_0_1_n_n none (truncf .bf16 (layer2 v0 v2 v5 v12 v15) bitsLt_bf16_f32)
          (truncf .bf16 (shapeCast S32x768 v22 shapeCasts_S32x768_S32x768) bitsLt_bf16_f32) (constant S200x768 .f32 0x00000000#32))
        (broadcastTo S200x768 (shapeCast S1x768 v26 shapeCasts_S1x768_S1x768) broadcasts_S1x768_S200x768) := rfl

/-- THE WEIGHTS OF A BLOCK: at edge p of the block and position q, the network of the block's weight blocks on
    the edge's features. -/
theorem radial_block (v0 : Vec Ideal S200x33 .f32) (v2 : Vec Ideal S33x32 .f32) (v5 : Vec Ideal S1x32 .f32) (v12 : Vec Ideal S32x32 .f32)
    (v15 : Vec Ideal S1x32 .f32) (v22 : Vec Ideal S32x768 .f32) (v26 : Vec Ideal S1x768 .f32) (p : Fin 200) (q : Fin 768) :
    k0_pay2 v0 v2 v5 v12 v15 v22 v26 (ix2 p q)
      = radial (fun k j => v2 (ix2 k j)) (fun j => v5 (ix2 (0 : Fin 1) j)) (fun k j => v12 (ix2 k j)) (fun j => v15 (ix2 (0 : Fin 1) j))
          (fun k q => v22 (ix2 k q)) (fun q => v26 (ix2 (0 : Fin 1) q)) (fun k => v0 (ix2 p k)) q := by
  rw [pay2_eq]
  show matmul dot_S200x32_S32x768_S200x768_1_0_0_1_n_n none _ _ _ (ix2 p q) + broadcastTo S200x768 _ _ (ix2 p q) = _
  rw [productC, bias_row768]
  simp only [truncf_apply, layer2_apply, shapeCast_self]
  rfl

/-! ## Spreading the weights, tiling the basis -/

/-- A 16 x 16 with every entry repeated over a 3 x 3 square, as the body prints it. -/
def spread (v : FVec Ideal S200x16x16 .f32) : FVec Ideal S200x48x48 .f32 :=
  shapeCast S200x48x48 (broadcastTo S200x48x16x3 (shapeCast S200x48x16x1 (shapeCast S200x48x16x1 (shapeCast S200x48x16
    (broadcastTo S200x16x3x16 (shapeCast S200x16x1x16 (shapeCast S200x16x1x16 v shapeCasts_S200x16x16_S200x16x1x16)
      shapeCasts_S200x16x1x16_S200x16x1x16) broadcasts_S200x16x1x16_S200x16x3x16) shapeCasts_S200x16x3x16_S200x48x16)
    shapeCasts_S200x48x16_S200x48x16x1) shapeCasts_S200x48x16x1_S200x48x16x1) broadcasts_S200x48x16x1_S200x48x16x3)
    shapeCasts_S200x48x16x3_S200x48x48

theorem spread_apply (v : FVec Ideal S200x16x16 .f32) (p : Fin 200) (r c : Fin 48) :
    spread v (ix3 p r c) = v (ix3 p (div3 r) (div3 c)) := by
  unfold spread
  rw [cast_merge_cols, spread_last, shapeCast_self, cast_unit_last, cast_merge_rows, spread_mid, shapeCast_self, cast_unit_mid]

/-- A 3 x 3 tiled 16 x 16 times, as the body prints it. -/
def tiled (v : FVec Ideal S200x3x3 .f32) : FVec Ideal S200x48x48 .f32 :=
  concatenate S200x48x48 2 [⟨S200x48x3, concatenate S200x48x3 1 [⟨S200x3x3, v⟩, ⟨S200x3x3, v⟩, ⟨S200x3x3, v⟩, ⟨S200x3x3, v⟩, ⟨S200x3x3, v⟩, ⟨S200x3x3, v⟩, ⟨S200x3x3, v⟩, ⟨S200x3x3, v⟩, ⟨S200x3x3, v⟩, ⟨S200x3x3, v⟩, ⟨S200x3x3, v⟩, ⟨S200x3x3, v⟩, ⟨S200x3x3, v⟩, ⟨S200x3x3, v⟩, ⟨S200x3x3, v⟩, ⟨S200x3x3, v⟩] concatenates_S200x3x3_S200x3x3_S200x3x3_S200x3x3_S200x3x3_S200x3x3_S200x3x3_S200x3x3_S200x3x3_S200x3x3_S200x3x3_S200x3x3_S200x3x3_S200x3x3_S200x3x3_S200x3x3_S200x48x3_d1⟩, ⟨S200x48x3, concatenate S200x48x3 1 [⟨S200x3x3, v⟩, ⟨S200x3x3, v⟩, ⟨S200x3x3, v⟩, ⟨S200x3x3, v⟩, ⟨S200x3x3, v⟩, ⟨S200x3x3, v⟩, ⟨S200x3x3, v⟩, ⟨S200x3x3, v⟩, ⟨S200x3x3, v⟩, ⟨S200x3x3, v⟩, ⟨S200x3x3, v⟩, ⟨S200x3x3, v⟩, ⟨S200x3x3, v⟩, ⟨S200x3x3, v⟩, ⟨S200x3x3, v⟩, ⟨S200x3x3, v⟩] concatenates_S200x3x3_S200x3x3_S200x3x3_S200x3x3_S200x3x3_S200x3x3_S200x3x3_S200x3x3_S200x3x3_S200x3x3_S200x3x3_S200x3x3_S200x3x3_S200x3x3_S200x3x3_S200x3x3_S200x48x3_d1⟩, ⟨S200x48x3, concatenate S200x48x3 1 [⟨S200x3x3, v⟩, ⟨S200x3x3, v⟩, ⟨S200x3x3, v⟩, ⟨S200x3x3, v⟩, ⟨S200x3x3, v⟩, ⟨S200x3x3, v⟩, ⟨S200x3x3, v⟩, ⟨S200x3x3, v⟩, ⟨S200x3x3, v⟩, ⟨S200x3x3, v⟩, ⟨S200x3x3, v⟩, ⟨S200x3x3, v⟩, ⟨S200x3x3, v⟩, ⟨S200x3x3, v⟩, ⟨S200x3x3, v⟩, ⟨S200x3x3, v⟩] concatenates_S200x3x3_S200x3x3_S200x3x3_S200x3x3_S200x3x3_S200x3x3_S200x3x3_S200x3x3_S200x3x3_S200x3x3_S200x3x3_S200x3x3_S200x3x3_S200x3x3_S200x3x3_S200x3x3_S200x48x3_d1⟩, ⟨S200x48x3, concatenate S200x48x3 1 [⟨S200x3x3, v⟩, ⟨S200x3x3, v⟩, ⟨S200x3x3, v⟩, ⟨S200x3x3, v⟩, ⟨S200x3x3, v⟩, ⟨S200x3x3, v⟩, ⟨S200x3x3, v⟩, ⟨S200x3x3, v⟩, ⟨S200x3x3, v⟩, ⟨S200x3x3, v⟩, ⟨S200x3x3, v⟩, ⟨S200x3x3, v⟩, ⟨S200x3x3, v⟩, ⟨S200x3x3, v⟩, ⟨S200x3x3, v⟩, ⟨S200x3x3, v⟩] concatenates_S200x3x3_S200x3x3_S200x3x3_S200x3x3_S200x3x3_S200x3x3_S200x3x3_S200x3x3_S200x3x3_S200x3x3_S200x3x3_S200x3x3_S200x3x3_S200x3x3_S200x3x3_S200x3x3_S200x48x3_d1⟩, ⟨S200x48x3, concatenate S200x48x3 1 [⟨S200x3x3, v⟩, ⟨S200x3x3, v⟩, ⟨S200x3x3, v⟩, ⟨S200x3x3, v⟩, ⟨S200x3x3, v⟩, ⟨S200x3x3, v⟩, ⟨S200x3x3, v⟩, ⟨S200x3x3, v⟩, ⟨S200x3x3, v⟩, ⟨S200x3x3, v⟩, ⟨S200x3x3, v⟩, ⟨S200x3x3, v⟩, ⟨S200x3x3, v⟩, ⟨S200x3x3, v⟩, ⟨S200x3x3, v⟩, ⟨S200x3x3, v⟩] concatenates_S200x3x3_S200x3x3_S200x3x3_S200x3x3_S200x3x3_S200x3x3_S200x3x3_S200x3x3_S200x3x3_S200x3x3_S200x3x3_S200x3x3_S200x3x3_S200x3x3_S200x3x3_S200x3x3_S200x48x3_d1⟩, ⟨S200x48x3, concatenate S200x48x3 1 [⟨S200x3x3, v⟩, ⟨S200x3x3, v⟩, ⟨S200x3x3, v⟩, ⟨S200x3x3, v⟩, ⟨S200x3x3, v⟩, ⟨S200x3x3, v⟩, ⟨S200x3x3, v⟩, ⟨S200x3x3, v⟩, ⟨S200x3x3, v⟩, ⟨S200x3x3, v⟩, ⟨S200x3x3, v⟩, ⟨S200x3x3, v⟩, ⟨S200x3x3, v⟩, ⟨S200x3x3, v⟩, ⟨S200x3x3, v⟩, ⟨S200x3x3, v⟩] concatenates_S200x3x3_S200x3x3_S200x3x3_S200x3x3_S200x3x3_S200x3x3_S200x3x3_S200x3x3_S200x3x3_S200x3x3_S200x3x3_S200x3x3_S200x3x3_S200x3x3_S200x3x3_S200x3x3_S200x48x3_d1⟩, ⟨S200x48x3, concatenate S200x48x3 1 [⟨S200x3x3, v⟩, ⟨S200x3x3, v⟩, ⟨S200x3x3, v⟩, ⟨S200x3x3, v⟩, ⟨S200x3x3, v⟩, ⟨S200x3x3, v⟩, ⟨S200x3x3, v⟩, ⟨S200x3x3, v⟩, ⟨S200x3x3, v⟩, ⟨S200x3x3, v⟩, ⟨S200x3x3, v⟩, ⟨S200x3x3, v⟩, ⟨S200x3x3, v⟩, ⟨S200x3x3, v⟩, ⟨S200x3x3, v⟩, ⟨S200x3x3, v⟩] concatenates_S200x3x3_S200x3x3_S200x3x3_S200x3x3_S200x3x3_S200x3x3_S200x3x3_S200x3x3_S200x3x3_S200x3x3_S200x3x3_S200x3x3_S200x3x3_S200x3x3_S200x3x3_S200x3x3_S200x48x3_d1⟩, ⟨S200x48x3, concatenate S200x48x3 1 [⟨S200x3x3, v⟩, ⟨S200x3x3, v⟩, ⟨S200x3x3, v⟩, ⟨S200x3x3, v⟩, ⟨S200x3x3, v⟩, ⟨S200x3x3, v⟩, ⟨S200x3x3, v⟩, ⟨S200x3x3, v⟩, ⟨S200x3x3, v⟩, ⟨S200x3x3, v⟩, ⟨S200x3x3, v⟩, ⟨S200x3x3, v⟩, ⟨S200x3x3, v⟩, ⟨S200x3x3, v⟩, ⟨S200x3x3, v⟩, ⟨S200x3x3, v⟩] concatenates_S200x3x3_S200x3x3_S200x3x3_S200x3x3_S200x3x3_S200x3x3_S200x3x3_S200x3x3_S200x3x3_S200x3x3_S200x3x3_S200x3x3_S200x3x3_S200x3x3_S200x3x3_S200x3x3_S200x48x3_d1⟩, ⟨S200x48x3, concatenate S200x48x3 1 [⟨S200x3x3, v⟩, ⟨S200x3x3, v⟩, ⟨S200x3x3, v⟩, ⟨S200x3x3, v⟩, ⟨S200x3x3, v⟩, ⟨S200x3x3, v⟩, ⟨S200x3x3, v⟩, ⟨S200x3x3, v⟩, ⟨S200x3x3, v⟩, ⟨S200x3x3, v⟩, ⟨S200x3x3, v⟩, ⟨S200x3x3, v⟩, ⟨S200x3x3, v⟩, ⟨S200x3x3, v⟩, ⟨S200x3x3, v⟩, ⟨S200x3x3, v⟩] concatenates_S200x3x3_S200x3x3_S200x3x3_S200x3x3_S200x3x3_S200x3x3_S200x3x3_S200x3x3_S200x3x3_S200x3x3_S200x3x3_S200x3x3_S200x3x3_S200x3x3_S200x3x3_S200x3x3_S200x48x3_d1⟩, ⟨S200x48x3, concatenate S200x48x3 1 [⟨S200x3x3, v⟩, ⟨S200x3x3, v⟩, ⟨S200x3x3, v⟩, ⟨S200x3x3, v⟩, ⟨S200x3x3, v⟩, ⟨S200x3x3, v⟩, ⟨S200x3x3, v⟩, ⟨S200x3x3, v⟩, ⟨S200x3x3, v⟩, ⟨S200x3x3, v⟩, ⟨S200x3x3, v⟩, ⟨S200x3x3, v⟩, ⟨S200x3x3, v⟩, ⟨S200x3x3, v⟩, ⟨S200x3x3, v⟩, ⟨S200x3x3, v⟩] concatenates_S200x3x3_S200x3x3_S200x3x3_S200x3x3_S200x3x3_S200x3x3_S200x3x3_S200x3x3_S200x3x3_S200x3x3_S200x3x3_S200x3x3_S200x3x3_S200x3x3_S200x3x3_S200x3x3_S200x48x3_d1⟩, ⟨S200x48x3, concatenate S200x48x3 1 [⟨S200x3x3, v⟩, ⟨S200x3x3, v⟩, ⟨S200x3x3, v⟩, ⟨S200x3x3, v⟩, ⟨S200x3x3, v⟩, ⟨S200x3x3, v⟩, ⟨S200x3x3, v⟩, ⟨S200x3x3, v⟩, ⟨S200x3x3, v⟩, ⟨S200x3x3, v⟩, ⟨S200x3x3, v⟩, ⟨S200x3x3, v⟩, ⟨S200x3x3, v⟩, ⟨S200x3x3, v⟩, ⟨S200x3x3, v⟩, ⟨S200x3x3, v⟩] concatenates_S200x3x3_S200x3x3_S200x3x3_S200x3x3_S200x3x3_S200x3x3_S200x3x3_S200x3x3_S200x3x3_S200x3x3_S200x3x3_S200x3x3_S200x3x3_S200x3x3_S200x3x3_S200x3x3_S200x48x3_d1⟩, ⟨S200x48x3, concatenate S200x48x3 1 [⟨S200x3x3, v⟩, ⟨S200x3x3, v⟩, ⟨S200x3x3, v⟩, ⟨S200x3x3, v⟩, ⟨S200x3x3, v⟩, ⟨S200x3x3, v⟩, ⟨S200x3x3, v⟩, ⟨S200x3x3, v⟩, ⟨S200x3x3, v⟩, ⟨S200x3x3, v⟩, ⟨S200x3x3, v⟩, ⟨S200x3x3, v⟩, ⟨S200x3x3, v⟩, ⟨S200x3x3, v⟩, ⟨S200x3x3, v⟩, ⟨S200x3x3, v⟩] concatenates_S200x3x3_S200x3x3_S200x3x3_S200x3x3_S200x3x3_S200x3x3_S200x3x3_S200x3x3_S200x3x3_S200x3x3_S200x3x3_S200x3x3_S200x3x3_S200x3x3_S200x3x3_S200x3x3_S200x48x3_d1⟩, ⟨S200x48x3, concatenate S200x48x3 1 [⟨S200x3x3, v⟩, ⟨S200x3x3, v⟩, ⟨S200x3x3, v⟩, ⟨S200x3x3, v⟩, ⟨S200x3x3, v⟩, ⟨S200x3x3, v⟩, ⟨S200x3x3, v⟩, ⟨S200x3x3, v⟩, ⟨S200x3x3, v⟩, ⟨S200x3x3, v⟩, ⟨S200x3x3, v⟩, ⟨S200x3x3, v⟩, ⟨S200x3x3, v⟩, ⟨S200x3x3, v⟩, ⟨S200x3x3, v⟩, ⟨S200x3x3, v⟩] concatenates_S200x3x3_S200x3x3_S200x3x3_S200x3x3_S200x3x3_S200x3x3_S200x3x3_S200x3x3_S200x3x3_S200x3x3_S200x3x3_S200x3x3_S200x3x3_S200x3x3_S200x3x3_S200x3x3_S200x48x3_d1⟩, ⟨S200x48x3, concatenate S200x48x3 1 [⟨S200x3x3, v⟩, ⟨S200x3x3, v⟩, ⟨S200x3x3, v⟩, ⟨S200x3x3, v⟩, ⟨S200x3x3, v⟩, ⟨S200x3x3, v⟩, ⟨S200x3x3, v⟩, ⟨S200x3x3, v⟩, ⟨S200x3x3, v⟩, ⟨S200x3x3, v⟩, ⟨S200x3x3, v⟩, ⟨S200x3x3, v⟩, ⟨S200x3x3, v⟩, ⟨S200x3x3, v⟩, ⟨S200x3x3, v⟩, ⟨S200x3x3, v⟩] concatenates_S200x3x3_S200x3x3_S200x3x3_S200x3x3_S200x3x3_S200x3x3_S200x3x3_S200x3x3_S200x3x3_S200x3x3_S200x3x3_S200x3x3_S200x3x3_S200x3x3_S200x3x3_S200x3x3_S200x48x3_d1⟩, ⟨S200x48x3, concatenate S200x48x3 1 [⟨S200x3x3, v⟩, ⟨S200x3x3, v⟩, ⟨S200x3x3, v⟩, ⟨S200x3x3, v⟩, ⟨S200x3x3, v⟩, ⟨S200x3x3, v⟩, ⟨S200x3x3, v⟩, ⟨S200x3x3, v⟩, ⟨S200x3x3, v⟩, ⟨S200x3x3, v⟩, ⟨S200x3x3, v⟩, ⟨S200x3x3, v⟩, ⟨S200x3x3, v⟩, ⟨S200x3x3, v⟩, ⟨S200x3x3, v⟩, ⟨S200x3x3, v⟩] concatenates_S200x3x3_S200x3x3_S200x3x3_S200x3x3_S200x3x3_S200x3x3_S200x3x3_S200x3x3_S200x3x3_S200x3x3_S200x3x3_S200x3x3_S200x3x3_S200x3x3_S200x3x3_S200x3x3_S200x48x3_d1⟩, ⟨S200x48x3, concatenate S200x48x3 1 [⟨S200x3x3, v⟩, ⟨S200x3x3, v⟩, ⟨S200x3x3, v⟩, ⟨S200x3x3, v⟩, ⟨S200x3x3, v⟩, ⟨S200x3x3, v⟩, ⟨S200x3x3, v⟩, ⟨S200x3x3, v⟩, ⟨S200x3x3, v⟩, ⟨S200x3x3, v⟩, ⟨S200x3x3, v⟩, ⟨S200x3x3, v⟩, ⟨S200x3x3, v⟩, ⟨S200x3x3, v⟩, ⟨S200x3x3, v⟩, ⟨S200x3x3, v⟩] concatenates_S200x3x3_S200x3x3_S200x3x3_S200x3x3_S200x3x3_S200x3x3_S200x3x3_S200x3x3_S200x3x3_S200x3x3_S200x3x3_S200x3x3_S200x3x3_S200x3x3_S200x3x3_S200x3x3_S200x48x3_d1⟩] concatenates_S200x48x3_S200x48x3_S200x48x3_S200x48x3_S200x48x3_S200x48x3_S200x48x3_S200x48x3_S200x48x3_S200x48x3_S200x48x3_S200x48x3_S200x48x3_S200x48x3_S200x48x3_S200x48x3_S200x48x48_d2

theorem tiled_apply (v : FVec Ideal S200x3x3 .f32) (p : Fin 200) (r c : Fin 48) :
    tiled v (ix3 p r c) = v (ix3 p (rem3 r) (rem3 c)) := by
  unfold tiled
  exact (tile_cols _ _ p r c).trans (tile_rows v _ p (r) (rem3 c))

/-- One of the three products at (p, r, c): the weight at position o + pair and the basis entry at position o' + offset pair. -/
theorem product_at (v29 : FVec Ideal S200x768 .f32) (v31 : FVec Ideal S200x27 .f32) (o o' : Nat)
    (h : S200x768.Slices ![0, o] S200x256) (h' : S200x27.Slices ![0, o'] S200x9) (p : Fin 200) (r c : Fin 48)
    (q : Fin 768) (d : Fin 27) (hq : q.val = o + (pair r c).val) (hd : d.val = o' + (off r c).val) :
    mulf (spread (shapeCast S200x16x16 (extractStridedSlice S200x256 ![0, o] v29 h) shapeCasts_S200x256_S200x16x16))
        (tiled (shapeCast S200x3x3 (extractStridedSlice S200x9 ![0, o'] v31 h') shapeCasts_S200x9_S200x3x3)) (ix3 p r c)
      = v29 (ix2 p q) * v31 (ix2 p d) := by
  show spread _ (ix3 p r c) * tiled _ (ix3 p r c) = _
  rw [spread_apply, tiled_apply, cast_pair _ _ p (div3 r) (div3 c) (pair r c) rfl, cast_off _ _ p (rem3 r) (rem3 c) (off r c) rfl,
    slice2_axis1_apply o v29 h p (pair r c) q hq, slice2_axis1_apply o' v31 h' p (off r c) d hd]

/-- The basis block goes through a cast to its own shape: it is the block. -/
theorem pay3_eq (v30 : Vec Ideal S200x27 .f32) : k0_pay3 v30 = v30 := by
  unfold k0_pay3
  exact shapeCast_self v30 _

/-- The stored value is the three products added one after the other onto the zeros. -/
theorem pay1_eq (v29 : FVec Ideal S200x768 .f32) (v31 : FVec Ideal S200x27 .f32) (v32 : FVec Ideal S200x48x48 .f32)
    (v35 : FVec Ideal S200x16x16 .f32) (v36 : FVec Ideal S200x3x3 .f32) :
    k0_pay1 v29 v31 v32 v35 v36
      = addf (addf (addf v32 (mulf (spread v35) (tiled v36)))
          (mulf (spread (shapeCast S200x16x16 (extractStridedSlice S200x256 ![0, 256] v29 slices_S200x768_o0_256_S200x256) shapeCasts_S200x256_S200x16x16))
            (tiled (shapeCast S200x3x3 (extractStridedSlice S200x9 ![0, 9] v31 slices_S200x27_o0_9_S200x9) shapeCasts_S200x9_S200x3x3))))
        (mulf (spread (shapeCast S200x16x16 (extractStridedSlice S200x256 ![0, 512] v29 slices_S200x768_o0_512_S200x256) shapeCasts_S200x256_S200x16x16))
          (tiled (shapeCast S200x3x3 (extractStridedSlice S200x9 ![0, 18] v31 slices_S200x27_o0_18_S200x9) shapeCasts_S200x9_S200x3x3))) := rfl

/-- THE BODY'S STORE AT (p, r, c) of its block, from the eight blocks it loads: the accumulated sum, over the
    block's weights in the basis-function-major order and the block's 27 basis entries per edge. -/
theorem payload_at (x0 : Vec Ideal S200x33 .f32) (x1 : Vec Ideal S200x27 .f32) (x2 : Vec Ideal S33x32 .f32) (x3 : Vec Ideal S1x32 .f32)
    (x4 : Vec Ideal S32x32 .f32) (x5 : Vec Ideal S1x32 .f32) (x6 : Vec Ideal S32x768 .f32) (x7 : Vec Ideal S1x768 .f32)
    (p : Fin 200) (r c : Fin 48) :
    k0_pay1 (k0_pay2 x0 x2 x3 x4 x5 x6 x7) (k0_pay3 x1) (k0_pay4 (F := Ideal)) (k0_pay5 x0 x2 x3 x4 x5 x6 x7) (k0_pay6 x1) (ix3 p r c)
      = accumulated (radial (fun k j => x2 (ix2 k j)) (fun j => x3 (ix2 (0 : Fin 1) j)) (fun k j => x4 (ix2 k j)) (fun j => x5 (ix2 (0 : Fin 1) j))
            (fun k q => x6 (ix2 k q)) (fun q => x7 (ix2 (0 : Fin 1) q)) (fun k => x0 (ix2 p k)))
          (fun d => x1 (ix2 p d)) r c := by
  rw [pay1_eq]
  have e0 : mulf (spread (k0_pay5 x0 x2 x3 x4 x5 x6 x7)) (tiled (k0_pay6 x1)) (ix3 p r c)
      = k0_pay2 x0 x2 x3 x4 x5 x6 x7 (ix2 p (kerCol 0 r c)) * k0_pay3 x1 (ix2 p (kerBas 0 r c)) :=
    product_at (k0_pay2 x0 x2 x3 x4 x5 x6 x7) (k0_pay3 x1) 0 0 slices_S200x768_o0_0_S200x256 slices_S200x27_o0_0_S200x9 p r c
      (kerCol 0 r c) (kerBas 0 r c)
      (by show 0 * 256 + (r.val / 3 * 16 + c.val / 3) = 0 + (r.val / 3 * 16 + c.val / 3); omega)
      (by show 0 * 9 + (r.val % 3 * 3 + c.val % 3) = 0 + (r.val % 3 * 3 + c.val % 3); omega)
  have e1 := product_at (k0_pay2 x0 x2 x3 x4 x5 x6 x7) (k0_pay3 x1) 256 9 slices_S200x768_o0_256_S200x256 slices_S200x27_o0_9_S200x9 p r c
      (kerCol 1 r c) (kerBas 1 r c)
      (by show 1 * 256 + (r.val / 3 * 16 + c.val / 3) = 256 + (r.val / 3 * 16 + c.val / 3); omega)
      (by show 1 * 9 + (r.val % 3 * 3 + c.val % 3) = 9 + (r.val % 3 * 3 + c.val % 3); omega)
  have e2 := product_at (k0_pay2 x0 x2 x3 x4 x5 x6 x7) (k0_pay3 x1) 512 18 slices_S200x768_o0_512_S200x256 slices_S200x27_o0_18_S200x9 p r c
      (kerCol 2 r c) (kerBas 2 r c)
      (by show 2 * 256 + (r.val / 3 * 16 + c.val / 3) = 512 + (r.val / 3 * 16 + c.val / 3); omega)
      (by show 2 * 9 + (r.val % 3 * 3 + c.val % 3) = 18 + (r.val % 3 * 3 + c.val % 3); omega)
  show ((k0_pay4 (F := Ideal) (ix3 p r c) + mulf (spread _) (tiled _) (ix3 p r c)) + mulf (spread _) (tiled _) (ix3 p r c))
    + mulf (spread _) (tiled _) (ix3 p r c) = _
  rw [e0, e1, e2, pay3_eq]
  simp only [radial_block]
  rfl

end Cert.KernelIdeal.BodyValue

end
-- ==== Proof.Permuted.lean ====
/-
  What the host operations in front of the region leave in the arrays the region reads.

  The last layer's weights 32 x 768 are reshaped to 32 x 256 x 3, the last two axes exchanged, and reshaped back:
  position 256 n + k of a row then holds the column 3 k + n (perm768). The last bias goes the same way and then
  gets a leading unit axis. The basis 50000 x 3 x 3 x 3 is flattened to 27, reshaped to 9 x 3, the last two axes
  exchanged, and flattened again: position 9 n + 3 doe + die of an edge then holds the entry (doe, die, n).
  The first two biases only get a leading unit axis.
-/
import proofs.«153429_j32813550141520_1_alg».proof.Proof.Gen.KernelIdeal.Frame
import proofs.«153429_j32813550141520_1_alg».proof.Proof.EdgeTensor
import Idealize.ShloMosaic.Lib.Pipeline.Value
import Idealize.ShloMosaic.Lib.ValueLayout
import Idealize.ShloMosaic.Lib.ValueIdx
import Idealize.ShloMosaic.Lib.StableHlo.Run

noncomputable section

namespace Cert.KernelIdeal.Permuted

open Cert.KernelIdeal Cert.KernelIdeal.Gen Cert.EdgeTensor
open Idealize.ShloMosaic Idealize.ShloMosaic.TcCoe Idealize.ShloMosaic.ValueIdx Idealize.SL.Sem Idealize.ShloMosaic.StableHlo

/-! ## The reshapes, read at an index given by coordinates -/

section Layout
variable {α : Type}

/-- 768 columns as 3 x 256. -/
theorem cols768_3x256 (v : S32x3x256.Idx → α) (h : S32x3x256.ShapeCasts S32x768) (k : Fin 32) (q : Fin 768)
    (n : Fin 3) (e : Fin 256) (hq : q.val = n.val * 256 + e.val) :
    shapeCast S32x768 v h (ix2 k q) = v (ix3 k n e) :=
  shapeCast_apply v h _ _ (by
    rw [Shape.rowMajor_val_three, Shape.rowMajor_val_two]
    show (k.val * 3 + n.val) * 256 + e.val = k.val * 768 + q.val
    omega)

/-- 256 x 3 as 768 columns. -/
theorem cols256x3_768 (v : S32x768.Idx → α) (h : S32x768.ShapeCasts S32x256x3) (k : Fin 32) (e : Fin 256) (n : Fin 3)
    (f : Fin 768) (hf : f.val = e.val * 3 + n.val) :
    shapeCast S32x256x3 v h (ix3 k e n) = v (ix2 k f) :=
  shapeCast_apply v h _ _ (by
    rw [Shape.rowMajor_val_two, Shape.rowMajor_val_three]
    show k.val * 768 + f.val = (k.val * 256 + e.val) * 3 + n.val
    omega)

/-- A vector of 768 as 3 x 256. -/
theorem vec768_3x256 (v : S3x256.Idx → α) (h : S3x256.ShapeCasts S768) (q : Fin 768) (n : Fin 3) (e : Fin 256)
    (hq : q.val = n.val * 256 + e.val) :
    shapeCast S768 v h (ix1 q) = v (ix2 n e) :=
  shapeCast_apply v h _ _ (by
    rw [Shape.rowMajor_val_two, Shape.rowMajor_val_one]
    show n.val * 256 + e.val = q.val
    omega)

/-- 256 x 3 as a vector of 768. -/
theorem vec256x3_768 (v : S768.Idx → α) (h : S768.ShapeCasts S256x3) (e : Fin 256) (n : Fin 3) (f : Fin 768)
    (hf : f.val = e.val * 3 + n.val) :
    shapeCast S256x3 v h (ix2 e n) = v (ix1 f) :=
  shapeCast_apply v h _ _ (by
    rw [Shape.rowMajor_val_one, Shape.rowMajor_val_two]
    show f.val = e.val * 3 + n.val
    exact hf)

/-- 27 basis entries of an edge as 3 x 9. -/
theorem cols27_3x9 (v : S50000x3x9.Idx → α) (h : S50000x3x9.ShapeCasts S50000x27) (b : Fin 50000) (d : Fin 27)
    (n : Fin 3) (e : Fin 9) (hd : d.val = n.val * 9 + e.val) :
    shapeCast S50000x27 v h (ix2 b d) = v (ix3 b n e) :=
  shapeCast_apply v h _ _ (by
    rw [Shape.rowMajor_val_three, Shape.rowMajor_val_two]
    show (b.val * 3 + n.val) * 9 + e.val = b.val * 27 + d.val
    omega)

/-- 9 x 3 as 27. -/
theorem cols9x3_27 (v : S50000x27.Idx → α) (h : S50000x27.ShapeCasts S50000x9x3) (b : Fin 50000) (e : Fin 9) (n : Fin 3)
    (f : Fin 27) (hf : f.val = e.val * 3 + n.val) :
    shapeCast S50000x9x3 v h (ix3 b e n) = v (ix2 b f) :=
  shapeCast_apply v h _ _ (by
    rw [Shape.rowMajor_val_two, Shape.rowMajor_val_three]
    show b.val * 27 + f.val = (b.val * 9 + e.val) * 3 + n.val
    omega)

/-- 27 as 3 x 3 x 3. -/
theorem cols27_3x3x3 (v : S50000x3x3x3.Idx → α) (h : S50000x3x3x3.ShapeCasts S50000x27) (b : Fin 50000) (f : Fin 27)
    (x y z : Fin 3) (hf : f.val = (x.val * 3 + y.val) * 3 + z.val) :
    shapeCast S50000x27 v h (ix2 b f) = v (ix4 b x y z) :=
  shapeCast_apply v h _ _ (by
    rw [Shape.rowMajor_val_four, Shape.rowMajor_val_two]
    show ((b.val * 3 + x.val) * 3 + y.val) * 3 + z.val = b.val * 27 + f.val
    omega)

end Layout

variable (m : (ℓ : Loc nD τ sig) → Buf (Elt Ideal) ℓ)

/-! ## Each array the region reads, as the host operations' term of the arguments -/

theorem w3p_term (c : Dev nD) :
    (V m c main_v2 : S32x768.Idx → EReal)
      = shapeCast _ (transpose S32x3x256 [0, 2, 1] (shapeCast _ (m ((c : Thread nD τ).loc main_arg6)) shapeCasts_S32x768_S32x256x3)
          transposes_S32x256x3_S32x3x256_0_2_1) shapeCasts_S32x3x256_S32x768 := by
  dsimp only [V, hostOps0]; after_results; rfl

theorem b3p_term (c : Dev nD) :
    (V m c main_v12 : S1x768.Idx → EReal)
      = shapeCast _ (shapeCast _ (transpose S3x256 [1, 0] (shapeCast _ (m ((c : Thread nD τ).loc main_arg7)) shapeCasts_S768_S256x3)
          transposes_S256x3_S3x256_1_0) shapeCasts_S3x256_S768) shapeCasts_S768_S1x768 := by
  dsimp only [V, hostOps0]; after_results; rfl

theorem basis_p_term (c : Dev nD) :
    (V m c main_v9 : S50000x27.Idx → EReal)
      = shapeCast _ (transpose S50000x3x9 [0, 2, 1] (shapeCast _ (shapeCast _ (m ((c : Thread nD τ).loc main_arg1))
          shapeCasts_S50000x3x3x3_S50000x27) shapeCasts_S50000x27_S50000x9x3) transposes_S50000x9x3_S50000x3x9_0_2_1)
          shapeCasts_S50000x3x9_S50000x27 := by
  dsimp only [V, hostOps0]; after_results; rfl

theorem b1r_term (c : Dev nD) :
    (V m c main_v10 : S1x32.Idx → EReal) = shapeCast _ (m ((c : Thread nD τ).loc main_arg3)) shapeCasts_S32_S1x32 := by
  dsimp only [V, hostOps0]; after_results; rfl

theorem b2r_term (c : Dev nD) :
    (V m c main_v11 : S1x32.Idx → EReal) = shapeCast _ (m ((c : Thread nD τ).loc main_arg5)) shapeCasts_S32_S1x32 := by
  dsimp only [V, hostOps0]; after_results; rfl

/-! ## The same, read at an index -/

/-- Position q of row k of the permuted weights is column perm768 q of row k of the weights. -/
theorem w3p_at (c : Dev nD) (k : Fin 32) (q : Fin 768) :
    (V m c main_v2 : S32x768.Idx → EReal) (ix2 k q)
      = (m ((c : Thread nD τ).loc main_arg6) : S32x768.Idx → EReal) (ix2 k (perm768 q)) := by
  have hq := q.isLt
  refine (congrFun (w3p_term m c) (ix2 k q)).trans ?_
  refine (cols768_3x256 _ _ k q ⟨q.val / 256, by omega⟩ ⟨q.val % 256, by omega⟩
    (by show q.val = q.val / 256 * 256 + q.val % 256; omega)).trans ?_
  refine (transpose_ix3_021_apply _ _ _ _ _).trans ?_
  exact cols256x3_768 _ _ k _ _ (perm768 q) rfl

/-- Position q of the permuted bias is entry perm768 q of the bias. -/
theorem b3p_at (c : Dev nD) (u : Fin 1) (q : Fin 768) :
    (V m c main_v12 : S1x768.Idx → EReal) (ix2 u q)
      = (m ((c : Thread nD τ).loc main_arg7) : S768.Idx → EReal) (ix1 (perm768 q)) := by
  have hq := q.isLt
  refine (congrFun (b3p_term m c) (ix2 u q)).trans ?_
  refine (shapeCast_a_1a_apply _ _ u q).trans ?_
  refine (vec768_3x256 _ _ q ⟨q.val / 256, by omega⟩ ⟨q.val % 256, by omega⟩
    (by show q.val = q.val / 256 * 256 + q.val % 256; omega)).trans ?_
  refine (transpose_ix2_apply _ _ _ _).trans ?_
  exact vec256x3_768 _ _ _ _ (perm768 q) rfl

/-- Position d of edge b of the permuted basis is the entry (basRow d, basCol d, basFn d) of the edge's basis. -/
theorem basis_p_at (c : Dev nD) (b : Fin 50000) (d : Fin 27) :
    (V m c main_v9 : S50000x27.Idx → EReal) (ix2 b d)
      = (m ((c : Thread nD τ).loc main_arg1) : S50000x3x3x3.Idx → EReal) (ix4 b (basRow d) (basCol d) (basFn d)) := by
  have hd := d.isLt
  refine (congrFun (basis_p_term m c) (ix2 b d)).trans ?_
  refine (cols27_3x9 _ _ b d (basFn d) ⟨d.val % 9, by omega⟩ (by show d.val = d.val / 9 * 9 + d.val % 9; omega)).trans ?_
  refine (transpose_ix3_021_apply _ _ _ _ _).trans ?_
  refine (cols9x3_27 _ _ b _ _ ⟨d.val % 9 * 3 + d.val / 9, by omega⟩ rfl).trans ?_
  exact cols27_3x3x3 _ _ b _ (basRow d) (basCol d) (basFn d)
    (by show d.val % 9 * 3 + d.val / 9 = (d.val % 9 / 3 * 3 + d.val % 9 % 3) * 3 + d.val / 9; omega)

/-- The first bias with a leading unit axis. -/
theorem b1r_at (c : Dev nD) (u : Fin 1) (j : Fin 32) :
    (V m c main_v10 : S1x32.Idx → EReal) (ix2 u j) = (m ((c : Thread nD τ).loc main_arg3) : S32.Idx → EReal) (ix1 j) :=
  (congrFun (b1r_term m c) (ix2 u j)).trans (shapeCast_a_1a_apply _ _ u j)

/-- The second bias with a leading unit axis. -/
theorem b2r_at (c : Dev nD) (u : Fin 1) (j : Fin 32) :
    (V m c main_v11 : S1x32.Idx → EReal) (ix2 u j) = (m ((c : Thread nD τ).loc main_arg5) : S32.Idx → EReal) (ix1 j) :=
  (congrFun (b2r_term m c) (ix2 u j)).trans (shapeCast_a_1a_apply _ _ u j)

end Cert.KernelIdeal.Permuted

end
-- ==== Proof.WholeArray.lean ====
/-
  From the blocks to the whole array.

  Grid point t works on edges 200 t .. 200 t + 199: it reads those rows of the features and of the permuted
  basis, the whole of the six weight and bias arrays, and writes those edges' 48 x 48 tensors. So what point t
  writes back is block t of the tensor of the specification: the body's store at (p, r, c) is the accumulated
  sum over the block's loads, the loads are the argument arrays read at edge 200 t + p, the permuted last layer
  read at position kerCol n is the last layer read at column refCol n, the permuted basis read at position kerBas n
  is the basis entry (r % 3, c % 3, n), and accumulating is summing. The 250 blocks cover the 50000 edges, so
  the array after the run is the tensor.
-/
import proofs.«153429_j32813550141520_1_alg».proof.Proof.Gen.KernelIdeal.Value
import proofs.«153429_j32813550141520_1_alg».proof.Proof.BodyTensor
import proofs.«153429_j32813550141520_1_alg».proof.Proof.Permuted
import proofs.«153429_j32813550141520_1_alg».proof.Proof.EdgeTensor

noncomputable section

namespace Cert.KernelIdeal.WholeArray

open Cert.KernelIdeal Cert.KernelIdeal.Gen Cert.EdgeTensor
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-! ## Where each window's block sits, decided over the 250 points -/

/-- The features, the permuted basis and the result move with the point along the edges, and nowhere else. -/
theorem idx_moving : ∀ t : Fin cfg0.N,
    win0_0.index t (0 : Fin 2) = t.val ∧ win0_0.index t (1 : Fin 2) = 0
    ∧ win0_1.index t (0 : Fin 2) = t.val ∧ win0_1.index t (1 : Fin 2) = 0
    ∧ win0_8.index t (0 : Fin 3) = t.val ∧ win0_8.index t (1 : Fin 3) = 0 ∧ win0_8.index t (2 : Fin 3) = 0 :=
  (by decide +kernel : ∀ t : Fin grid0.N, _)

/-- The weights and biases are read whole at every point. -/
theorem idx_fixed : ∀ t : Fin cfg0.N,
    win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0 :=
  (by decide +kernel : ∀ t : Fin grid0.N, _)

/-! ## Each input block, read at coordinates, as the argument arrays -/

/-- Edge p of the block of features at point t is edge 200 t + p of the features. -/
theorem feat_blk (c : Dev nD) (t : Fin cfg0.N) (p : Fin 200) (k : Fin 33) (b : Fin 50000) (hb : b.val = t.val * 200 + p.val) :
    (iblk m c 0 t : Vec Ideal S200x33 .f32) (ix2 p k) = (m ((c : Thread nD τ).loc main_arg0) : S50000x33.Idx → EReal) (ix2 b k) := by
  obtain ⟨g00, g01, g10, g11, g80, g81, g82⟩ := idx_moving t
  unfold iblk
  rw [View.read_apply]
  show (V m c main_arg0 : S50000x33.Idx → EReal) _ = _
  refine (congrArg (V m c main_arg0 : S50000x33.Idx → EReal) (?_ : _ = ix2 b k)).trans (congrFun (V_main_arg0 m c) (ix2 b k))
  funext a; apply Fin.ext
  match a with
  | ⟨0, _⟩ => show win0_0.index t (0 : Fin 2) * 200 + 1 * p.val = b.val; omega
  | ⟨1, _⟩ => show win0_0.index t (1 : Fin 2) * 33 + 1 * k.val = k.val; omega

/-- Edge p of the block of the permuted basis is edge 200 t + p of the basis, the 27 entries in the basis-function-major order. -/
theorem basis_blk (c : Dev nD) (t : Fin cfg0.N) (p : Fin 200) (d : Fin 27) (b : Fin 50000) (hb : b.val = t.val * 200 + p.val) :
    (iblk m c 1 t : Vec Ideal S200x27 .f32) (ix2 p d) = (m ((c : Thread nD τ).loc main_arg1) : S50000x3x3x3.Idx → EReal) (ix4 b (basRow d) (basCol d) (basFn d)) := by
  obtain ⟨g00, g01, g10, g11, g80, g81, g82⟩ := idx_moving t
  unfold iblk
  rw [View.read_apply]
  show (V m c main_v9 : S50000x27.Idx → EReal) _ = _
  refine (congrArg (V m c main_v9 : S50000x27.Idx → EReal) (?_ : _ = ix2 b d)).trans (Permuted.basis_p_at m c b d)
  funext a; apply Fin.ext
  match a with
  | ⟨0, _⟩ => show win0_1.index t (0 : Fin 2) * 200 + 1 * p.val = b.val; omega
  | ⟨1, _⟩ => show win0_1.index t (1 : Fin 2) * 27 + 1 * d.val = d.val; omega

/-- The first layer's weights, whole. -/
theorem w1_blk (c : Dev nD) (t : Fin cfg0.N) (k : Fin 33) (j : Fin 32) :
    (iblk m c 2 t : Vec Ideal S33x32 .f32) (ix2 k j) = (m ((c : Thread nD τ).loc main_arg2) : S33x32.Idx → EReal) (ix2 k j) := by
  obtain ⟨f20, f21, f30, f31, f40, f41, f50, f51, f60, f61, f70, f71⟩ := idx_fixed t
  unfold iblk
  rw [View.read_apply]
  show (V m c main_arg2 : S33x32.Idx → EReal) _ = _
  refine (congrArg (V m c main_arg2 : S33x32.Idx → EReal) (?_ : _ = ix2 k j)).trans (congrFun (V_main_arg2 m c) (ix2 k j))
  funext a; apply Fin.ext
  match a with
  | ⟨0, _⟩ => show win0_2.index t (0 : Fin 2) * 33 + 1 * k.val = k.val; omega
  | ⟨1, _⟩ => show win0_2.index t (1 : Fin 2) * 32 + 1 * j.val = j.val; omega

/-- The first bias, as a row. -/
theorem b1_blk (c : Dev nD) (t : Fin cfg0.N) (u : Fin 1) (j : Fin 32) :
    (iblk m c 3 t : Vec Ideal S1x32 .f32) (ix2 u j) = (m ((c : Thread nD τ).loc main_arg3) : S32.Idx → EReal) (ix1 j) := by
  obtain ⟨f20, f21, f30, f31, f40, f41, f50, f51, f60, f61, f70, f71⟩ := idx_fixed t
  unfold iblk
  rw [View.read_apply]
  show (V m c main_v10 : S1x32.Idx → EReal) _ = _
  refine (congrArg (V m c main_v10 : S1x32.Idx → EReal) (?_ : _ = ix2 u j)).trans (Permuted.b1r_at m c u j)
  funext a; apply Fin.ext
  match a with
  | ⟨0, _⟩ => show win0_3.index t (0 : Fin 2) * 1 + 1 * u.val = u.val; omega
  | ⟨1, _⟩ => show win0_3.index t (1 : Fin 2) * 32 + 1 * j.val = j.val; omega

/-- The second layer's weights, whole. -/
theorem w2_blk (c : Dev nD) (t : Fin cfg0.N) (k : Fin 32) (j : Fin 32) :
    (iblk m c 4 t : Vec Ideal S32x32 .f32) (ix2 k j) = (m ((c : Thread nD τ).loc main_arg4) : S32x32.Idx → EReal) (ix2 k j) := by
  obtain ⟨f20, f21, f30, f31, f40, f41, f50, f51, f60, f61, f70, f71⟩ := idx_fixed t
  unfold iblk
  rw [View.read_apply]
  show (V m c main_arg4 : S32x32.Idx → EReal) _ = _
  refine (congrArg (V m c main_arg4 : S32x32.Idx → EReal) (?_ : _ = ix2 k j)).trans (congrFun (V_main_arg4 m c) (ix2 k j))
  funext a; apply Fin.ext
  match a with
  | ⟨0, _⟩ => show win0_4.index t (0 : Fin 2) * 32 + 1 * k.val = k.val; omega
  | ⟨1, _⟩ => show win0_4.index t (1 : Fin 2) * 32 + 1 * j.val = j.val; omega

/-- The second bias, as a row. -/
theorem b2_blk (c : Dev nD) (t : Fin cfg0.N) (u : Fin 1) (j : Fin 32) :
    (iblk m c 5 t : Vec Ideal S1x32 .f32) (ix2 u j) = (m ((c : Thread nD τ).loc main_arg5) : S32.Idx → EReal) (ix1 j) := by
  obtain ⟨f20, f21, f30, f31, f40, f41, f50, f51, f60, f61, f70, f71⟩ := idx_fixed t
  unfold iblk
  rw [View.read_apply]
  show (V m c main_v11 : S1x32.Idx → EReal) _ = _
  refine (congrArg (V m c main_v11 : S1x32.Idx → EReal) (?_ : _ = ix2 u j)).trans (Permuted.b2r_at m c u j)
  funext a; apply Fin.ext
  match a with
  | ⟨0, _⟩ => show win0_5.index t (0 : Fin 2) * 1 + 1 * u.val = u.val; omega
  | ⟨1, _⟩ => show win0_5.index t (1 : Fin 2) * 32 + 1 * j.val = j.val; omega

/-- The last layer's weights with permuted columns. -/
theorem w3_blk (c : Dev nD) (t : Fin cfg0.N) (k : Fin 32) (q : Fin 768) :
    (iblk m c 6 t : Vec Ideal S32x768 .f32) (ix2 k q) = (m ((c : Thread nD τ).loc main_arg6) : S32x768.Idx → EReal) (ix2 k (perm768 q)) := by
  obtain ⟨f20, f21, f30, f31, f40, f41, f50, f51, f60, f61, f70, f71⟩ := idx_fixed t
  unfold iblk
  rw [View.read_apply]
  show (V m c main_v2 : S32x768.Idx → EReal) _ = _
  refine (congrArg (V m c main_v2 : S32x768.Idx → EReal) (?_ : _ = ix2 k q)).trans (Permuted.w3p_at m c k q)
  funext a; apply Fin.ext
  match a with
  | ⟨0, _⟩ => show win0_6.index t (0 : Fin 2) * 32 + 1 * k.val = k.val; omega
  | ⟨1, _⟩ => show win0_6.index t (1 : Fin 2) * 768 + 1 * q.val = q.val; omega

/-- The last bias, permuted, as a row. -/
theorem b3_blk (c : Dev nD) (t : Fin cfg0.N) (u : Fin 1) (q : Fin 768) :
    (iblk m c 7 t : Vec Ideal S1x768 .f32) (ix2 u q) = (m ((c : Thread nD τ).loc main_arg7) : S768.Idx → EReal) (ix1 (perm768 q)) := by
  obtain ⟨f20, f21, f30, f31, f40, f41, f50, f51, f60, f61, f70, f71⟩ := idx_fixed t
  unfold iblk
  rw [View.read_apply]
  show (V m c main_v12 : S1x768.Idx → EReal) _ = _
  refine (congrArg (V m c main_v12 : S1x768.Idx → EReal) (?_ : _ = ix2 u q)).trans (Permuted.b3p_at m c u q)
  funext a; apply Fin.ext
  match a with
  | ⟨0, _⟩ => show win0_7.index t (0 : Fin 2) * 1 + 1 * u.val = u.val; omega
  | ⟨1, _⟩ => show win0_7.index t (1 : Fin 2) * 768 + 1 * q.val = q.val; omega

/-! ## What a point writes back -/

/-- The tensor of the specification of the arguments as launched on core c. -/
abbrev result (c : Dev nD) : S50000x48x48.Idx → EReal :=
  tensorArr (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))

/-- WHAT POINT t WRITES BACK is block t of the tensor. -/
theorem flushed_eq (c : Dev nD) (t : Fin cfg0.N) :
    (dats m 0 c).flushed 8 t = ((cfg0.win 8).blk t).view.read (Elt Ideal) (result m c) := by
  have hN : cfg0.N = 250 := N_0
  have ht := t.isLt
  obtain ⟨g00, g01, g10, g11, g80, g81, g82⟩ := idx_moving t
  rw [Value.flushed8]
  unfold out0_8
  rw [View.canon_unit_zero hz3]
  simp only [View.ld_unit_zero (S := S200x33) hz2, View.ld_unit_zero (S := S200x27) hz2, View.ld_unit_zero (S := S33x32) hz2,
    View.ld_unit_zero (S := S1x32) hz2, View.ld_unit_zero (S := S32x32) hz2, View.ld_unit_zero (S := S32x768) hz2,
    View.ld_unit_zero (S := S1x768) hz2]
  funext y
  obtain ⟨p, r, c', rfl⟩ : ∃ (p : Fin 200) (r c' : Fin 48), y = ix3 p r c' := ⟨y 0, y 1, y 2, eq_ix3 y⟩
  have hemb : ((cfg0.win 8).blk t).view.emb (ix3 p r c') = ix3 (⟨t.val * 200 + p.val, by omega⟩ : Fin 50000) r c' := by
    funext a; apply Fin.ext
    match a with
    | ⟨0, _⟩ => show win0_8.index t (0 : Fin 3) * 200 + 1 * p.val = t.val * 200 + p.val; omega
    | ⟨1, _⟩ => show win0_8.index t (1 : Fin 3) * 48 + 1 * r.val = r.val; omega
    | ⟨2, _⟩ => show win0_8.index t (2 : Fin 3) * 48 + 1 * c'.val = c'.val; omega
  show k0_pay1 (F := Ideal) _ _ _ _ _ (ix3 p r c') = result m c (((cfg0.win 8).blk t).view.emb (ix3 p r c'))
  rw [hemb]
  unfold result
  rw [tensorArr_ix3]
  refine (BodyValue.payload_at _ _ _ _ _ _ _ _ p r c').trans ?_
  have h0 : (fun k => (iblk m c 0 t : Vec Ideal S200x33 .f32) (ix2 p k))
      = fun k => (m ((c : Thread nD τ).loc main_arg0) : S50000x33.Idx → EReal) (ix2 (⟨t.val * 200 + p.val, by omega⟩ : Fin 50000) k) :=
    funext fun k => feat_blk m c t p k _ rfl
  have h1 : (fun d => (iblk m c 1 t : Vec Ideal S200x27 .f32) (ix2 p d))
      = fun d => (m ((c : Thread nD τ).loc main_arg1) : S50000x3x3x3.Idx → EReal) (ix4 (⟨t.val * 200 + p.val, by omega⟩ : Fin 50000) (basRow d) (basCol d) (basFn d)) :=
    funext fun d => basis_blk m c t p d _ rfl
  have h2 : (fun k j => (iblk m c 2 t : Vec Ideal S33x32 .f32) (ix2 k j)) = fun k j => (m ((c : Thread nD τ).loc main_arg2) : S33x32.Idx → EReal) (ix2 k j) :=
    funext fun k => funext fun j => w1_blk m c t k j
  have h3 : (fun j => (iblk m c 3 t : Vec Ideal S1x32 .f32) (ix2 (0 : Fin 1) j)) = fun j => (m ((c : Thread nD τ).loc main_arg3) : S32.Idx → EReal) (ix1 j) :=
    funext fun j => b1_blk m c t 0 j
  have h4 : (fun k j => (iblk m c 4 t : Vec Ideal S32x32 .f32) (ix2 k j)) = fun k j => (m ((c : Thread nD τ).loc main_arg4) : S32x32.Idx → EReal) (ix2 k j) :=
    funext fun k => funext fun j => w2_blk m c t k j
  have h5 : (fun j => (iblk m c 5 t : Vec Ideal S1x32 .f32) (ix2 (0 : Fin 1) j)) = fun j => (m ((c : Thread nD τ).loc main_arg5) : S32.Idx → EReal) (ix1 j) :=
    funext fun j => b2_blk m c t 0 j
  have h6 : (fun k q => (iblk m c 6 t : Vec Ideal S32x768 .f32) (ix2 k q))
      = fun k q => (m ((c : Thread nD τ).loc main_arg6) : S32x768.Idx → EReal) (ix2 k (perm768 q)) :=
    funext fun k => funext fun q => w3_blk m c t k q
  have h7 : (fun q => (iblk m c 7 t : Vec Ideal S1x768 .f32) (ix2 (0 : Fin 1) q))
      = fun q => (m ((c : Thread nD τ).loc main_arg7) : S768.Idx → EReal) (ix1 (perm768 q)) :=
    funext fun q => b3_blk m c t 0 q
  rw [h0, h1, h2, h3, h4, h5, h6, h7]
  unfold tensor tensorAt
  refine accumulated_eq _ _ r c' _ _ (fun n => ?_) (fun n => ?_)
  · exact (radial_perm _ _ _ _ (fun k q => (m ((c : Thread nD τ).loc main_arg6) : S32x768.Idx → EReal) (ix2 k q))
      (fun q => (m ((c : Thread nD τ).loc main_arg7) : S768.Idx → EReal) (ix1 q)) perm768 _ (kerCol n r c')).trans (by rw [perm768_kerCol])
  · show (m ((c : Thread nD τ).loc main_arg1) : S50000x3x3x3.Idx → EReal) (ix4 _ (basRow (kerBas n r c')) (basCol (kerBas n r c')) (basFn (kerBas n r c'))) = _
    rw [basRow_kerBas, basCol_kerBas, basFn_kerBas]

/-! ## The cover, the array, the run -/

/-- An index of the array is in point t's block iff each coordinate is in the block's range on its axis. -/
theorem mem_blk (t : Fin cfg0.N) (i : S50000x48x48.Idx) :
    i ∈ ((cfg0.win 8).blk t).view.set
      ↔ ∀ a : Fin 3, win0_8.index t a * S200x48x48.size a ≤ (i a).val ∧ (i a).val < win0_8.index t a * S200x48x48.size a + S200x48x48.size a := by
  show i ∈ ((View.whole main_v13).slice (win0_8.rect t)).set ↔ _
  rw [View.set_slice_whole, Rect.mem_set_unit]
  exact Iff.rfl

/-- Edge b is in the block of point b / 200. -/
theorem cover (i : S50000x48x48.Idx) : ∃ t : Fin cfg0.N, (cfg0.win 8).flush t = true ∧ i ∈ ((cfg0.win 8).blk t).view.set := by
  have hN : cfg0.N = 250 := N_0
  have hi0 : (i 0).val < 50000 := (i 0).isLt
  have hi1 : (i 1).val < 48 := (i 1).isLt
  have hi2 : (i 2).val < 48 := (i 2).isLt
  refine ⟨⟨(i 0).val / 200, by omega⟩, flush0_8 _, ?_⟩
  obtain ⟨g00, g01, g10, g11, g80, g81, g82⟩ := idx_moving ⟨(i 0).val / 200, by omega⟩
  rw [mem_blk]
  intro a
  match a with
  | ⟨0, _⟩ =>
    show win0_8.index ⟨(i 0).val / 200, _⟩ (0 : Fin 3) * 200 ≤ (i 0).val ∧ (i 0).val < win0_8.index ⟨(i 0).val / 200, _⟩ (0 : Fin 3) * 200 + 200
    rw [g80]; show (i 0).val / 200 * 200 ≤ (i 0).val ∧ (i 0).val < (i 0).val / 200 * 200 + 200; omega
  | ⟨1, _⟩ =>
    show win0_8.index ⟨(i 0).val / 200, _⟩ (1 : Fin 3) * 48 ≤ (i 1).val ∧ (i 1).val < win0_8.index ⟨(i 0).val / 200, _⟩ (1 : Fin 3) * 48 + 48
    rw [g81]; omega
  | ⟨2, _⟩ =>
    show win0_8.index ⟨(i 0).val / 200, _⟩ (2 : Fin 3) * 48 ≤ (i 2).val ∧ (i 2).val < win0_8.index ⟨(i 0).val / 200, _⟩ (2 : Fin 3) * 48 + 48
    rw [g82]; omega

/-- THE ARRAY after the run is the tensor. -/
theorem final (c : Dev nD) : (dats m 0 c).arrAt 8 cfg0.N = result m c :=
  (dats m 0 c).arrAt_eq_of_cover 8 (result m c) (fun t _ => flushed_eq m c t) cover

/-- The run, read: the result array at the tensor of the arguments, the arguments unchanged. -/
theorem run : θ_run defs (onTc (τ := τ) (main (F := Ideal))) ⟨m, fun _ => 0, ρ⟩ fun r => ∀ c : Dev nD,
      r.2.mem ((c : Thread nD τ).loc main_v13) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (Value.run_blocks m ρ)

end Cert.KernelIdeal.WholeArray

end
-- ==== Proof.lean ====
/-
  The kernel and its reference compute one function on the extended reals.

  Every edge has 33 features and a 3 x 3 x 3 basis. A three-layer network (two maxima with zero) turns the features
  into 768 radial weights, one per pair of channels (co, ci) and basis function n; the result, 48 x 48 per edge, has
  at row 3 co + doe and column 3 ci + die the sum over n of the weight (co, ci, n) times the basis entry (doe, die, n)
  (Proof/EdgeTensor.lean). The reference reshapes weights and basis and contracts over n in one product
  (Proof/ReferenceTensor.lean). The kernel permutes the last layer's columns and the basis on the host so that each
  basis function's 256 weights and 9 entries are contiguous (Proof/Permuted.lean), and on each block of 200 edges
  runs the network, spreads the weights, tiles the basis and adds the three products one after the other onto zeros
  (Proof/BodyTensor.lean); the 250 blocks make up the array (Proof/WholeArray.lean). On the extended reals a change
  of float format is the identity, a product accumulated into zeros is the sum of the products, and adding three
  terms onto zero one at a time is their sum: no input needs to be finite for the two results to be equal.

  The three frames are the generated ones (the reference's is its generated run with the result dropped); the
  idealization rewrote nothing, so it preserves the kernel trivially.
-/
import proofs.«153429_j32813550141520_1_alg».proof.Defs
import proofs.«153429_j32813550141520_1_alg».proof.Proof.Gen.Kernel
import proofs.«153429_j32813550141520_1_alg».proof.Proof.Gen.Kernel.Frame
import proofs.«153429_j32813550141520_1_alg».proof.Proof.Gen.KernelIdeal
import proofs.«153429_j32813550141520_1_alg».proof.Proof.Gen.KernelIdeal.Frame
import proofs.«153429_j32813550141520_1_alg».proof.Proof.Gen.KernelIdeal.Value
import proofs.«153429_j32813550141520_1_alg».proof.Proof.Gen.ReferenceIdeal
import proofs.«153429_j32813550141520_1_alg».proof.Proof.Gen.ReferenceIdeal.Run
import proofs.«153429_j32813550141520_1_alg».proof.Proof.Gen.ReferenceIdeal.Read
import proofs.«153429_j32813550141520_1_alg».proof.Proof.Gen.Pre_finite_inputs
import proofs.«153429_j32813550141520_1_alg».proof.Proof.ReferenceTensor
import proofs.«153429_j32813550141520_1_alg».proof.Proof.WholeArray
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the tensor of the specification of their arguments, and the arguments agree. -/
theorem algebraic : Cert.algebraic_KernelIdeal_ReferenceIdeal := by
  intro m ρ m' ρ' _ hagree
  refine ⟨fun c => Cert.KernelIdeal.WholeArray.result m c, Cert.KernelIdeal.WholeArray.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7⟩ := hagree c
  rw [Cert.ReferenceIdeal.Read.val_main_v19_eq, Cert.ReferenceIdeal.RefValue.result_eq, e0, e1, e2, e3, e4, e5, e6, e7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
